-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S576x256 : Shape := ⟨2, ![576, 256]⟩
abbrev S256 : Shape := ⟨1, ![256]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel
  bcast_S_S576x256 : S_.BroadcastsInDim S576x256 (![] : Fin 0 → Fin S576x256.rank)
  reducesTo_S576x256_S_d0_1 : S576x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x128x128x64 .f32) (main_arg1 : FVec F S576x256 .f32) (main_arg2 : FVec F S256 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S576x256 .f32 := Host.absf main_arg1
  let main_cst_0 : FVec F S_ .f32 := constant S_ .f32 0x7F800000#32
  let main_v5 : FVec F S576x256 .f32 := broadcastInDim S576x256 ![] bcast_S_S576x256 main_cst_0
  let main_v6 : IVec S576x256 1 := cmpf .olt main_v4 main_v5
  let main_c_1 : IVec S_ 1 := constantI S_ 1 1#1
  let main_v7 : IVec S_ 1 := (fun x v => Host.reduce IntOp.andi x v reducesTo_S576x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x128x128x64 : Shape := ⟨4, ![16, 128, 128, 64]⟩
abbrev S576x256 : Shape := ⟨2, ![576, 256]⟩
abbrev S256 : Shape := ⟨1, ![256]⟩
abbrev S16x128x128x256 : Shape := ⟨4, ![16, 128, 128, 256]⟩
abbrev S1x128x128x64 : Shape := ⟨4, ![1, 128, 128, 64]⟩
abbrev S576x128 : Shape := ⟨2, ![576, 128]⟩
abbrev S128 : Shape := ⟨1, ![128]⟩
abbrev S1x128x128x128 : Shape := ⟨4, ![1, 128, 128, 128]⟩
abbrev S128x128x64 : Shape := ⟨3, ![128, 128, 64]⟩
abbrev S1x1x128 : Shape := ⟨3, ![1, 1, 128]⟩
abbrev S8x128x64 : Shape := ⟨3, ![8, 128, 64]⟩
abbrev S8x127x64 : Shape := ⟨3, ![8, 127, 64]⟩
abbrev S8x1x64 : Shape := ⟨3, ![8, 1, 64]⟩
abbrev S1x128x64 : Shape := ⟨3, ![1, 128, 64]⟩
abbrev S7x128x64 : Shape := ⟨3, ![7, 128, 64]⟩
abbrev S8x128x576 : Shape := ⟨3, ![8, 128, 576]⟩
abbrev S1024x576 : Shape := ⟨2, ![1024, 576]⟩
abbrev S1024x128 : Shape := ⟨2, ![1024, 128]⟩
abbrev S8x128x128 : Shape := ⟨3, ![8, 128, 128]⟩
abbrev S1x8x128x128 : Shape := ⟨4, ![1, 8, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S16x128x128x64, .f32⟩
  | .hbm, ⟨1, _⟩ => ⟨S576x256, .f32⟩
  | .hbm, ⟨2, _⟩ => ⟨S256, .f32⟩
  | .hbm, ⟨3, _⟩ => ⟨S16x128x128x256, .f32⟩
  | .local _ .vmem, ⟨0, _⟩ => ⟨S1x128x128x64, .f32⟩
  | .local _ .vmem, ⟨1, _⟩ => ⟨S1x128x128x64, .f32⟩
  | .local _ .vmem, ⟨2, _⟩ => ⟨S576x128, .f32⟩
  | .local _ .vmem, ⟨3, _⟩ => ⟨S576x128, .f32⟩
  | .local _ .vmem, ⟨4, _⟩ => ⟨S128, .f32⟩
  | .local _ .vmem, ⟨5, _⟩ => ⟨S128, .f32⟩
  | .local _ .vmem, ⟨6, _⟩ => ⟨S1x128x128x128, .f32⟩
  | .local _ .vmem, ⟨7, _⟩ => ⟨S1x128x128x128, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S576x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  bitsLt_bf16_f32 : FTy.bits .bf16 < FTy.bits .f32
  inb_S576x128_S576x128_0_0 : ∀ a, (![0, 0] : Fin 2 → Nat) a + S576x128.size a ≤ S576x128.size a
  h_S576x128 : 0 < S576x128.numel
  inb_S128_S128_0 : ∀ a, (![0] : Fin 1 → Nat) a + S128.size a ≤ S128.size a
  h_S128 : 0 < S128.numel
  shapeCasts_S128_S1x1x128 : S128.ShapeCasts S1x1x128
  slices_S128x128x64_o1_0_0_S8x128x64 : S128x128x64.Slices ![1, 0, 0] S8x128x64
  slices_S8x128x64_o0_1_0_S8x127x64 : S8x128x64.Slices ![0, 1, 0] S8x127x64
  slices_S8x128x64_o0_0_0_S8x1x64 : S8x128x64.Slices ![0, 0, 0] S8x1x64
  concatenates_S8x127x64_S8x1x64_S8x128x64_d1 : Shape.Concatenates [S8x127x64, S8x1x64] S8x128x64 1
  slices_S128x128x64_o0_0_0_S8x128x64 : S128x128x64.Slices ![0, 0, 0] S8x128x64
  slices_S128x128x64_o127_0_0_S1x128x64 : S128x128x64.Slices ![127, 0, 0] S1x128x64
  slices_S128x128x64_o0_0_0_S7x128x64 : S128x128x64.Slices ![0, 0, 0] S7x128x64
  concatenates_S1x128x64_S7x128x64_S8x128x64_d0 : Shape.Concatenates [S1x128x64, S7x128x64] S8x128x64 0
  slices_S8x128x64_o0_127_0_S8x1x64 : S8x128x64.Slices ![0, 127, 0] S8x1x64
  slices_S8x128x64_o0_0_0_S8x127x64 : S8x128x64.Slices ![0, 0, 0] S8x127x64
  concatenates_S8x1x64_S8x127x64_S8x128x64_d1 : Shape.Concatenates [S8x1x64, S8x127x64] S8x128x64 1
  concatenates_S8x128x64_S8x128x64_S8x128x64_S8x128x64_S8x128x64_S8x128x64_S8x128x64_S8x128x64_S8x128x64_S8x128x576_d2 : Shape.Concatenates [S8x128x64, S8x128x64, S8x128x64, S8x128x64, S8x128x64, S8x128x64, S8x128x64, S8x128x64, S8x128x64] S8x128x576 2
  shapeCasts_S8x128x576_S1024x576 : S8x128x576.ShapeCasts S1024x576
  shapeCasts_S1024x128_S8x128x128 : S1024x128.ShapeCasts S8x128x128
  broadcasts_S1x1x128_S8x128x128 : S1x1x128.Broadcasts S8x128x128
  inb_S1x128x128x128_S1x8x128x128_0_0_0_0 : ∀ a, (![0, 0, 0, 0] : Fin 4 → Nat) a + S1x8x128x128.size a ≤ S1x128x128x128.size a
  h_S1x8x128x128 : 0 < S1x8x128x128.numel
  shapeCasts_S1x8x128x128_S8x128x128 : S1x8x128x128.ShapeCasts S8x128x128
  shapeCasts_S8x128x128_S1x8x128x128 : S8x128x128.ShapeCasts S1x8x128x128
  slices_S128x128x64_o9_0_0_S8x128x64 : S128x128x64.Slices ![9, 0, 0] S8x128x64
  slices_S128x128x64_o8_0_0_S8x128x64 : S128x128x64.Slices ![8, 0, 0] S8x128x64
  slices_S128x128x64_o7_0_0_S8x128x64 : S128x128x64.Slices ![7, 0, 0] S8x128x64
  inb_S1x128x128x128_S1x8x128x128_0_8_0_0 : ∀ a, (![0, 8, 0, 0] : Fin 4 → Nat) a + S1x8x128x128.size a ≤ S1x128x128x128.size a
  slices_S128x128x64_o17_0_0_S8x128x64 : S128x128x64.Slices ![17, 0, 0] S8x128x64
  slices_S128x128x64_o16_0_0_S8x128x64 : S128x128x64.Slices ![16, 0, 0] S8x128x64
  slices_S128x128x64_o15_0_0_S8x128x64 : S128x128x64.Slices ![15, 0, 0] S8x128x64
  inb_S1x128x128x128_S1x8x128x128_0_16_0_0 : ∀ a, (![0, 16, 0, 0] : Fin 4 → Nat) a + S1x8x128x128.size a ≤ S1x128x128x128.size a
  slices_S128x128x64_o25_0_0_S8x128x64 : S128x128x64.Slices ![25, 0, 0] S8x128x64
  slices_S128x128x64_o24_0_0_S8x128x64 : S128x128x64.Slices ![24, 0, 0] S8x128x64
  slices_S128x128x64_o23_0_0_S8x128x64 : S128x128x64.Slices ![23, 0, 0] S8x128x64
  inb_S1x128x128x128_S1x8x128x128_0_24_0_0 : ∀ a, (![0, 24, 0, 0] : Fin 4 → Nat) a + S1x8x128x128.size a ≤ S1x128x128x128.size a
  slices_S128x128x64_o33_0_0_S8x128x64 : S128x128x64.Slices ![33, 0, 0] S8x128x64
  slices_S128x128x64_o32_0_0_S8x128x64 : S128x128x64.Slices ![32, 0, 0] S8x128x64
  slices_S128x128x64_o31_0_0_S8x128x64 : S128x128x64.Slices ![31, 0, 0] S8x128x64
  inb_S1x128x128x128_S1x8x128x128_0_32_0_0 : ∀ a, (![0, 32, 0, 0] : Fin 4 → Nat) a + S1x8x128x128.size a ≤ S1x128x128x128.size a
  slices_S128x128x64_o41_0_0_S8x128x64 : S128x128x64.Slices ![41, 0, 0] S8x128x64
  slices_S128x128x64_o40_0_0_S8x128x64 : S128x128x64.Slices ![40, 0, 0] S8x128x64
  slices_S128x128x64_o39_0_0_S8x128x64 : S128x128x64.Slices ![39, 0, 0] S8x128x64
  inb_S1x128x128x128_S1x8x128x128_0_40_0_0 : ∀ a, (![0, 40, 0, 0] : Fin 4 → Nat) a + S1x8x128x128.size a ≤ S1x128x128x128.size a
  slices_S128x128x64_o49_0_0_S8x128x64 : S128x128x64.Slices ![49, 0, 0] S8x128x64
  slices_S128x128x64_o48_0_0_S8x128x64 : S128x128x64.Slices ![48, 0, 0] S8x128x64
  slices_S128x128x64_o47_0_0_S8x128x64 : S128x128x64.Slices ![47, 0, 0] S8x128x64
  inb_S1x128x128x128_S1x8x128x128_0_48_0_0 : ∀ a, (![0, 48, 0, 0] : Fin 4 → Nat) a + S1x8x128x128.size a ≤ S1x128x128x128.size a
  slices_S128x128x64_o57_0_0_S8x128x64 : S128x128x64.Slices ![57, 0, 0] S8x128x64
  slices_S128x128x64_o56_0_0_S8x128x64 : S128x128x64.Slices ![56, 0, 0] S8x128x64
  slices_S128x128x64_o55_0_0_S8x128x64 : S128x128x64.Slices ![55, 0, 0] S8x128x64
  inb_S1x128x128x128_S1x8x128x128_0_56_0_0 : ∀ a, (![0, 56, 0, 0] : Fin 4 → Nat) a + S1x8x128x128.size a ≤ S1x128x128x128.size a
  slices_S128x128x64_o65_0_0_S8x128x64 : S128x128x64.Slices ![65, 0, 0] S8x128x64
  slices_S128x128x64_o64_0_0_S8x128x64 : S128x128x64.Slices ![64, 0, 0] S8x128x64
  slices_S128x128x64_o63_0_0_S8x128x64 : S128x128x64.Slices ![63, 0, 0] S8x128x64
  inb_S1x128x128x128_S1x8x128x128_0_64_0_0 : ∀ a, (![0, 64, 0, 0] : Fin 4 → Nat) a + S1x8x128x128.size a ≤ S1x128x128x128.size a
  slices_S128x128x64_o73_0_0_S8x128x64 : S128x128x64.Slices ![73, 0, 0] S8x128x64
  slices_S128x128x64_o72_0_0_S8x128x64 : S128x128x64.Slices ![72, 0, 0] S8x128x64
  slices_S128x128x64_o71_0_0_S8x128x64 : S128x128x64.Slices ![71, 0, 0] S8x128x64
  inb_S1x128x128x128_S1x8x128x128_0_72_0_0 : ∀ a, (![0, 72, 0, 0] : Fin 4 → Nat) a + S1x8x128x128.size a ≤ S1x128x128x128.size a
  slices_S128x128x64_o81_0_0_S8x128x64 : S128x128x64.Slices ![81, 0, 0] S8x128x64
  slices_S128x128x64_o80_0_0_S8x128x64 : S128x128x64.Slices ![80, 0, 0] S8x128x64
  slices_S128x128x64_o79_0_0_S8x128x64 : S128x128x64.Slices ![79, 0, 0] S8x128x64
  inb_S1x128x128x128_S1x8x128x128_0_80_0_0 : ∀ a, (![0, 80, 0, 0] : Fin 4 → Nat) a + S1x8x128x128.size a ≤ S1x128x128x128.size a
  slices_S128x128x64_o89_0_0_S8x128x64 : S128x128x64.Slices ![89, 0, 0] S8x128x64
  slices_S128x128x64_o88_0_0_S8x128x64 : S128x128x64.Slices ![88, 0, 0] S8x128x64
  slices_S128x128x64_o87_0_0_S8x128x64 : S128x128x64.Slices ![87, 0, 0] S8x128x64
  inb_S1x128x128x128_S1x8x128x128_0_88_0_0 : ∀ a, (![0, 88, 0, 0] : Fin 4 → Nat) a + S1x8x128x128.size a ≤ S1x128x128x128.size a
  slices_S128x128x64_o97_0_0_S8x128x64 : S128x128x64.Slices ![97, 0, 0] S8x128x64
  slices_S128x128x64_o96_0_0_S8x128x64 : S128x128x64.Slices ![96, 0, 0] S8x128x64
  slices_S128x128x64_o95_0_0_S8x128x64 : S128x128x64.Slices ![95, 0, 0] S8x128x64
  inb_S1x128x128x128_S1x8x128x128_0_96_0_0 : ∀ a, (![0, 96, 0, 0] : Fin 4 → Nat) a + S1x8x128x128.size a ≤ S1x128x128x128.size a
  slices_S128x128x64_o105_0_0_S8x128x64 : S128x128x64.Slices ![105, 0, 0] S8x128x64
  slices_S128x128x64_o104_0_0_S8x128x64 : S128x128x64.Slices ![104, 0, 0] S8x128x64
  slices_S128x128x64_o103_0_0_S8x128x64 : S128x128x64.Slices ![103, 0, 0] S8x128x64
  inb_S1x128x128x128_S1x8x128x128_0_104_0_0 : ∀ a, (![0, 104, 0, 0] : Fin 4 → Nat) a + S1x8x128x128.size a ≤ S1x128x128x128.size a
  slices_S128x128x64_o113_0_0_S8x128x64 : S128x128x64.Slices ![113, 0, 0] S8x128x64
  slices_S128x128x64_o112_0_0_S8x128x64 : S128x128x64.Slices ![112, 0, 0] S8x128x64
  slices_S128x128x64_o111_0_0_S8x128x64 : S128x128x64.Slices ![111, 0, 0] S8x128x64
  inb_S1x128x128x128_S1x8x128x128_0_112_0_0 : ∀ a, (![0, 112, 0, 0] : Fin 4 → Nat) a + S1x8x128x128.size a ≤ S1x128x128x128.size a
  slices_S128x128x64_o121_0_0_S7x128x64 : S128x128x64.Slices ![121, 0, 0] S7x128x64
  slices_S128x128x64_o0_0_0_S1x128x64 : S128x128x64.Slices ![0, 0, 0] S1x128x64
  concatenates_S7x128x64_S1x128x64_S8x128x64_d0 : Shape.Concatenates [S7x128x64, S1x128x64] S8x128x64 0
  slices_S128x128x64_o120_0_0_S8x128x64 : S128x128x64.Slices ![120, 0, 0] S8x128x64
  slices_S128x128x64_o119_0_0_S8x128x64 : S128x128x64.Slices ![119, 0, 0] S8x128x64
  inb_S1x128x128x128_S1x8x128x128_0_120_0_0 : ∀ a, (![0, 120, 0, 0] : Fin 4 → Nat) a + S1x8x128x128.size a ≤ S1x128x128x128.size a
  dot_S1024x576_S576x128_S1024x128_1_0_0_1_n_n_wf : DotDims.WF S1024x576 S576x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S16x128x128x64.size a
  hwx0_0 : ∀ i : grid0.Coords, EltTy.bits .f32 = 32 ∨ (Rect.block (s := S16x128x128x64) S1x128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x256.size a
  hwx0_1 : ∀ i : grid0.Coords, EltTy.bits .f32 = 32 ∨ (Rect.block (s := S576x256) S576x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S256.size a
  hwx0_2 : ∀ i : grid0.Coords, EltTy.bits .f32 = 32 ∨ (Rect.block (s := S256) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x128.size a ≤ S16x128x128x256.size a
  hwx0_3 : ∀ i : grid0.Coords, EltTy.bits .f32 = 32 ∨ (Rect.block (s := S16x128x128x256) S1x128x128x128.size (cc0_transform_3 i) (hinb0_3 i)).WholeWords (EltTy.packing .f32)

variable [Facts₀]

def dot_S1024x576_S576x128_S1024x128_1_0_0_1_n_n : DotDims S1024x576 S576x128 S1024x128 where
  lhsContracting := [1]
  rhsContracting := [0]
  lhsNonContracting := [0]
  rhsNonContracting := [1]
  lhsBatch := []
  rhsBatch := []
  wf := dot_S1024x576_S576x128_S1024x128_1_0_0_1_n_n_wf

abbrev win0_0 : Pipeline.Window sig grid0 :=
  Pipeline.Window.ofSpec (Memref.whole main_arg0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S576x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S576x256 : Shape := ⟨2, ![576, 256]⟩
abbrev S256 : Shape := ⟨1, ![256]⟩
abbrev S16x127x128x64 : Shape := ⟨4, ![16, 127, 128, 64]⟩
abbrev S16x1x128x64 : Shape := ⟨4, ![16, 1, 128, 64]⟩
abbrev S16x128x127x64 : Shape := ⟨4, ![16, 128, 127, 64]⟩
abbrev S16x128x1x64 : Shape := ⟨4, ![16, 128, 1, 64]⟩
abbrev S16x0x128x64 : Shape := ⟨4, ![16, 0, 128, 64]⟩
abbrev S16x128x0x64 : Shape := ⟨4, ![16, 128, 0, 64]⟩
abbrev S16x128x128x1x64 : Shape := ⟨5, ![16, 128, 128, 1, 64]⟩
abbrev S16x128x128x9x64 : Shape := ⟨5, ![16, 128, 128, 9, 64]⟩
abbrev S16x128x128x576 : Shape := ⟨4, ![16, 128, 128, 576]⟩
abbrev S16x128x128x256 : Shape := ⟨4, ![16, 128, 128, 256]⟩
abbrev S1x1x1x256 : Shape := ⟨4, ![1, 1, 1, 256]⟩

abbrev nBuf : Space → Nat
  | .hbm => 72
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S576x256, .f32⟩
  | .hbm, ⟨2, _⟩ => ⟨S256, .f32⟩
  | .hbm, ⟨3, _⟩ => ⟨S16x127x128x64, .f32⟩
  | .hbm, ⟨4, _⟩ => ⟨S16x1x128x64, .f32⟩
  | .hbm, ⟨5, _⟩ => ⟨S16x128x128x64, .f32⟩
  | .hbm, ⟨6, _⟩ => ⟨S16x128x127x64, .f32⟩
  | .hbm, ⟨7, _⟩ => ⟨S16x128x1x64, .f32⟩
  | .hbm, ⟨8, _⟩ => ⟨S16x128x128x64, .f32⟩
  | .hbm, ⟨9, _⟩ => ⟨S16x128x128x64, .f32⟩
  | .hbm, ⟨10, _⟩ => ⟨S16x0x128x64, .f32⟩
  | .hbm, ⟨11, _⟩ => ⟨S16x128x128x64, .f32⟩
  | .hbm, ⟨12, _⟩ => ⟨S16x128x127x64, .f32⟩
  | .hbm, ⟨13, _⟩ => ⟨S16x128x1x64, .f32⟩
  | .hbm, ⟨14, _⟩ => ⟨S16x128x128x64, .f32⟩
  | .hbm, ⟨15, _⟩ => ⟨S16x1x128x64, .f32⟩
  | .hbm, ⟨16, _⟩ => ⟨S16x127x128x64, .f32⟩
  | .hbm, ⟨17, _⟩ => ⟨S16x128x128x64, .f32⟩
  | .hbm, ⟨18, _⟩ => ⟨S16x128x127x64, .f32⟩
  | .hbm, ⟨19, _⟩ => ⟨S16x128x1x64, .f32⟩
  | .hbm, ⟨20, _⟩ => ⟨S16x128x128x64, .f32⟩
  | .hbm, ⟨21, _⟩ => ⟨S16x127x128x64, .f32⟩
  | .hbm, ⟨22, _⟩ => ⟨S16x1x128x64, .f32⟩
  | .hbm, ⟨23, _⟩ => ⟨S16x128x128x64, .f32⟩
  | .hbm, ⟨24, _⟩ => ⟨S16x128x128x64, .f32⟩
  | .hbm, ⟨25, _⟩ => ⟨S16x128x0x64, .f32⟩
  | .hbm, ⟨26, _⟩ => ⟨S16x128x128x64, .f32⟩
  | .hbm, ⟨27, _⟩ => ⟨S16x128x128x64, .f32⟩
  | .hbm, ⟨28, _⟩ => ⟨S16x0x128x64, .f32⟩
  | .hbm, ⟨29, _⟩ => ⟨S16x128x128x64, .f32⟩
  | .hbm, ⟨30, _⟩ => ⟨S16x128x128x64, .f32⟩
  | .hbm, ⟨31, _⟩ => ⟨S16x128x0x64, .f32⟩
  | .hbm, ⟨32, _⟩ => ⟨S16x128x128x64, .f32⟩
  | .hbm, ⟨33, _⟩ => ⟨S16x1x128x64, .f32⟩
  | .hbm, ⟨34, _⟩ => ⟨S16x127x128x64, .f32⟩
  | .hbm, ⟨35, _⟩ => ⟨S16x128x128x64, .f32⟩
  | .hbm, ⟨36, _⟩ => ⟨S16x128x128x64, .f32⟩
  | .hbm, ⟨37, _⟩ => ⟨S16x128x0x64, .f32⟩
  | .hbm, ⟨38, _⟩ => ⟨S16x128x128x64, .f32⟩
  | .hbm, ⟨39, _⟩ => ⟨S16x127x128x64, .f32⟩
  | .hbm, ⟨40, _⟩ => ⟨S16x1x128x64, .f32⟩
  | .hbm, ⟨41, _⟩ => ⟨S16x128x128x64, .f32⟩
  | .hbm, ⟨42, _⟩ => ⟨S16x128x1x64, .f32⟩
  | .hbm, ⟨43, _⟩ => ⟨S16x128x127x64, .f32⟩
  | .hbm, ⟨44, _⟩ => ⟨S16x128x128x64, .f32⟩
  | .hbm, ⟨45, _⟩ => ⟨S16x128x128x64, .f32⟩
  | .hbm, ⟨46, _⟩ => ⟨S16x0x128x64, .f32⟩
  | .hbm, ⟨47, _⟩ => ⟨S16x128x128x64, .f32⟩
  | .hbm, ⟨48, _⟩ => ⟨S16x128x1x64, .f32⟩
  | .hbm, ⟨49, _⟩ => ⟨S16x128x127x64, .f32⟩
  | .hbm, ⟨50, _⟩ => ⟨S16x128x128x64, .f32⟩
  | .hbm, ⟨51, _⟩ => ⟨S16x1x128x64, .f32⟩
  | .hbm, ⟨52, _⟩ => ⟨S16x127x128x64, .f32⟩
  | .hbm, ⟨53, _⟩ => ⟨S16x128x128x64, .f32⟩
  | .hbm, ⟨54, _⟩ => ⟨S16x128x1x64, .f32⟩
  | .hbm, ⟨55, _⟩ => ⟨S16x128x127x64, .f32⟩
  | .hbm, ⟨56, _⟩ => ⟨S16x128x128x64, .f32⟩
  | .hbm, ⟨57, _⟩ => ⟨S16x128x128x1x64, .f32⟩
  | .hbm, ⟨58, _⟩ => ⟨S16x128x128x1x64, .f32⟩
  | .hbm, ⟨59, _⟩ => ⟨S16x128x128x1x64, .f32⟩
  | .hbm, ⟨60, _⟩ => ⟨S16x128x128x1x64, .f32⟩
  | .hbm, ⟨61, _⟩ => ⟨S16x128x128x1x64, .f32⟩
  | .hbm, ⟨62, _⟩ => ⟨S16x128x128x1x64, .f32⟩
  | .hbm, ⟨63, _⟩ => ⟨S16x128x128x1x64, .f32⟩
  | .hbm, ⟨64, _⟩ => ⟨S16x128x128x1x64, .f32⟩
  | .hbm, ⟨65, _⟩ => ⟨S16x128x128x1x64, .f32⟩
  | .hbm, ⟨66, _⟩ => ⟨S16x128x128x9x64, .f32⟩
  | .hbm, ⟨67, _⟩ => ⟨S16x128x128x576, .f32⟩
  | .hbm, ⟨68, _⟩ => ⟨S16x128x128x256, .f32⟩
  | .hbm, ⟨69, _⟩ => ⟨S1x1x1x256, .f32⟩
  | .hbm, ⟨70, _⟩ => ⟨S16x128x128x256, .f32⟩
  | .hbm, ⟨71, _⟩ => ⟨S16x128x128x256, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v1 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_v2 : Ref sig .tc := ⟨.hbm, 20, rfl⟩
abbrev main_call3_v0 : Ref sig .tc := ⟨.hbm, 21, rfl⟩
abbrev main_call3_v1 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_v3 : Ref sig .tc := ⟨.hbm, 26, rfl⟩
abbrev main_call4_v0 : Ref sig .tc := ⟨.hbm, 27, rfl⟩
abbrev main_call4_v1 : Ref sig .tc := ⟨.hbm, 28, rfl⟩
abbrev main_call4_v2 : Ref sig .tc := ⟨.hbm, 29, rfl⟩
abbrev main_call4_v3 : Ref sig .tc := ⟨.hbm, 30, rfl⟩
abbrev main_call4_v4 : Ref sig .tc := ⟨.hbm, 31, rfl⟩
abbrev main_v4 : Ref sig .tc := ⟨.hbm, 32, rfl⟩
abbrev main_call5_v0 : Ref sig .tc := ⟨.hbm, 33, rfl⟩
abbrev main_call5_v1 : Ref sig .tc := ⟨.hbm, 34, rfl⟩
abbrev main_call5_v2 : Ref sig .tc := ⟨.hbm, 35, rfl⟩
abbrev main_call5_v3 : Ref sig .tc := ⟨.hbm, 36, rfl⟩
abbrev main_call5_v4 : Ref sig .tc := ⟨.hbm, 37, rfl⟩
abbrev main_v5 : Ref sig .tc := ⟨.hbm, 38, rfl⟩
abbrev main_call6_v0 : Ref sig .tc := ⟨.hbm, 39, rfl⟩
abbrev main_call6_v1 : Ref sig .tc := ⟨.hbm, 40, rfl⟩
abbrev main_call6_v2 : Ref sig .tc := ⟨.hbm, 41, rfl⟩
abbrev main_call6_v3 : Ref sig .tc := ⟨.hbm, 42, rfl⟩
abbrev main_call6_v4 : Ref sig .tc := ⟨.hbm, 43, rfl⟩
abbrev main_v6 : Ref sig .tc := ⟨.hbm, 44, rfl⟩
abbrev main_call7_v0 : Ref sig .tc := ⟨.hbm, 45, rfl⟩
abbrev main_call7_v1 : Ref sig .tc := ⟨.hbm, 46, rfl⟩
abbrev main_call7_v2 : Ref sig .tc := ⟨.hbm, 47, rfl⟩
abbrev main_call7_v3 : Ref sig .tc := ⟨.hbm, 48, rfl⟩
abbrev main_call7_v4 : Ref sig .tc := ⟨.hbm, 49, rfl⟩
abbrev main_v7 : Ref sig .tc := ⟨.hbm, 50, rfl⟩
abbrev main_call8_v0 : Ref sig .tc := ⟨.hbm, 51, rfl⟩
abbrev main_call8_v1 : Ref sig .tc := ⟨.hbm, 52, rfl⟩
abbrev main_call8_v2 : Ref sig .tc := ⟨.hbm, 53, rfl⟩
abbrev main_call8_v3 : Ref sig .tc := ⟨.hbm, 54, rfl⟩
abbrev main_call8_v4 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩

abbrev nD : Nat := 1
abbrev τ : Topo := Topo.v7x

variable {F : FTy → Type} [FloatOps F]

class Facts₀ : Prop where
  slices_S16x128x128x64_S16x127x128x64_0_1_0_0 : S16x128x128x64.Slices ![0, 1, 0, 0] S16x127x128x64
  slices_S16x128x128x64_S16x1x128x64_0_0_0_0 : S16x128x128x64.Slices ![0, 0, 0, 0] S16x1x128x64
  concatenates_S16x127x128x64_S16x1x128x64_S16x128x128x64_d1 : Shape.Concatenates [S16x127x128x64, S16x1x128x64] S16x128x128x64 1
  slices_S16x128x128x64_S16x128x127x64_0_0_1_0 : S16x128x128x64.Slices ![0, 0, 1, 0] S16x128x127x64
  slices_S16x128x128x64_S16x128x1x64_0_0_0_0 : S16x128x128x64.Slices ![0, 0, 0, 0] S16x128x1x64
  concatenates_S16x128x127x64_S16x128x1x64_S16x128x128x64_d2 : Shape.Concatenates [S16x128x127x64, S16x128x1x64] S16x128x128x64 2
  slices_S16x128x128x64_S16x128x128x64_0_0_0_0 : S16x128x128x64.Slices ![0, 0, 0, 0] S16x128x128x64
  slices_S16x128x128x64_S16x0x128x64_0_0_0_0 : S16x128x128x64.Slices ![0, 0, 0, 0] S16x0x128x64
  concatenates_S16x128x128x64_S16x0x128x64_S16x128x128x64_d1 : Shape.Concatenates [S16x128x128x64, S16x0x128x64] S16x128x128x64 1
  slices_S16x128x128x64_S16x1x128x64_0_127_0_0 : S16x128x128x64.Slices ![0, 127, 0, 0] S16x1x128x64
  slices_S16x128x128x64_S16x127x128x64_0_0_0_0 : S16x128x128x64.Slices ![0, 0, 0, 0] S16x127x128x64
  concatenates_S16x1x128x64_S16x127x128x64_S16x128x128x64_d1 : Shape.Concatenates [S16x1x128x64, S16x127x128x64] S16x128x128x64 1
  slices_S16x128x128x64_S16x128x0x64_0_0_0_0 : S16x128x128x64.Slices ![0, 0, 0, 0] S16x128x0x64
  concatenates_S16x128x128x64_S16x128x0x64_S16x128x128x64_d2 : Shape.Concatenates [S16x128x128x64, S16x128x0x64] S16x128x128x64 2
  slices_S16x128x128x64_S16x128x1x64_0_0_127_0 : S16x128x128x64.Slices ![0, 0, 127, 0] S16x128x1x64
  slices_S16x128x128x64_S16x128x127x64_0_0_0_0 : S16x128x128x64.Slices ![0, 0, 0, 0] S16x128x127x64
  concatenates_S16x128x1x64_S16x128x127x64_S16x128x128x64_d2 : Shape.Concatenates [S16x128x1x64, S16x128x127x64] S16x128x128x64 2
  bcast_S16x128x128x64_S16x128x128x1x64_0_1_2_4 : S16x128x128x64.BroadcastsInDim S16x128x128x1x64 (![0, 1, 2, 4] : Fin 4 → Fin S16x128x128x1x64.rank)
  concatenates_S16x128x128x1x64_S16x128x128x1x64_S16x128x128x1x64_S16x128x128x1x64_S16x128x128x1x64_S16x128x128x1x64_S16x128x128x1x64_S16x128x128x1x64_S16x128x128x1x64_S16x128x128x9x64_d3 : Shape.Concatenates [S16x128x128x1x64, S16x128x128x1x64, S16x128x128x1x64, S16x128x128x1x64, S16x128x128x1x64, S16x128x128x1x64, S16x128x128x1x64, S16x128x128x1x64, S16x128x128x1x64] S16x128x128x9x64 3
  shapeCasts_S16x128x128x9x64_S16x128x128x576 : S16x128x128x9x64.ShapeCasts S16x128x128x576
  bcast_S256_S1x1x1x256_3 : S256.BroadcastsInDim S1x1x1x256 (![3] : Fin 1 → Fin S1x1x1x256.rank)
  bcast_S1x1x1x256_S16x128x128x256_0_1_2_3 : S1x1x1x256.BroadcastsInDim S16x128x128x256 (![0, 1, 2, 3] : Fin 4 → Fin S16x128x128x256.rank)
  dot_S16x128x128x576_S576x256_S16x128x128x256_3_0_012_1_n_n_wf : DotDims.WF S16x128x128x576 S576x256 S16x128x128x256 [3] [0] [0, 1, 2] [1] [] []

variable [Facts₀]

def dot_S16x128x128x576_S576x256_S16x128x128x256_3_0_012_1_n_n : DotDims S16x128x128x576 S576x256 S16x128x128x256 where
  lhsContracting := [3]
  rhsContracting := [0]
  lhsNonContracting := [0, 1, 2]
  rhsNonContracting := [1]
  lhsBatch := []
  rhsBatch := []
  wf := dot_S16x128x128x576_S576x256_S16x128x128x256_3_0_012_1_n_n_wf

class Facts : Prop extends Facts₀ where

variable [Facts]
-- ==== Proof.Spec.lean ====
/-
  The 3×3 circular convolution as ONE function of its arguments.

  An image `x` of 128 × 128 pixels with 64 channels is convolved, with wrap-around at the edges, against nine
  taps.  Tap `s` (0 ≤ s < 9) shifts the image by `dh = s % 3 - 1` rows and `dw = s / 3 - 1` columns, so the output
  pixel `(h, w)` reads the input pixel `((h - dh) mod 128, (w - dw) mod 128)`.  The nine shifted copies are laid side
  by side along the channel axis — entry `k = 64 s + c` of the resulting row of 576 numbers is channel `c` of tap
  `s` — and that row is multiplied into a `576 × F` matrix, a bias added:

      out (b, h, w, f) = Σ_{k < 576} x (b, (h + 129 - (k/64) % 3) mod 128, (w + 129 - (k/64) / 3) mod 128, k % 64) · kern (k, f) + bias f.

  Both programs compute this sum, over the same 576 products in the same order; no law of the extended reals
  beyond reading the two sums term by term is needed.
-/
import Idealize.ShloMosaic.PureOps.Ideal
import Idealize.ShloMosaic.Lib.ValueIdx

noncomputable section

open scoped BigOperators

namespace Cert.CircConv

open Idealize.ShloMosaic Idealize.ShloMosaic.ValueIdx

/-- A rank-two shape by its extents. -/
abbrev T2 (a b : Nat) : Shape := ⟨2, ![a, b]⟩

/-- A rank-three shape by its extents. -/
abbrev T3 (a b c : Nat) : Shape := ⟨3, ![a, b, c]⟩

/-- A rank-four shape by its extents. -/
abbrev T4 (a b c d : Nat) : Shape := ⟨4, ![a, b, c, d]⟩

/-- A row or column number reduced into the image. -/
def wrap (n : Nat) : Fin 128 := ⟨n % 128, Nat.mod_lt _ (by norm_num)⟩

theorem wrap_val (n : Nat) : (wrap n).val = n % 128 := rfl

/-- The input row tap `s` reads for output row `h`: `(h - (s % 3 - 1)) mod 128`. -/
def srcRow (s h : Nat) : Fin 128 := wrap (h + 129 - s % 3)

/-- The input column tap `s` reads for output column `w`: `(w - (s / 3 - 1)) mod 128`. -/
def srcCol (s w : Nat) : Fin 128 := wrap (w + 129 - s / 3)

/-- The channel entry `k` of the 576-wide row reads. -/
def chan (k : Nat) : Fin 64 := ⟨k % 64, Nat.mod_lt _ (by norm_num)⟩

theorem srcRow_val (s h : Nat) : (srcRow s h).val = (h + 129 - s % 3) % 128 := rfl
theorem srcCol_val (s w : Nat) : (srcCol s w).val = (w + 129 - s / 3) % 128 := rfl
theorem chan_val (k : Nat) : (chan k).val = k % 64 := rfl

/-- Entry `k` of the row of nine shifted copies at pixel `(h, w)` of image `b`. -/
def tap {B : Nat} (x : (⟨4, ![B, 128, 128, 64]⟩ : Shape).Idx → EReal) (b : Fin B) (h w k : Nat) : EReal :=
  x (ix4 b (srcRow (k / 64) h) (srcCol (k / 64) w) (chan k))

/-- The convolution's value at image `b`, pixel `(h, w)`, output channel `f`. -/
def convAt {B F : Nat} (x : (⟨4, ![B, 128, 128, 64]⟩ : Shape).Idx → EReal) (kern : (⟨2, ![576, F]⟩ : Shape).Idx → EReal)
    (bias : (⟨1, ![F]⟩ : Shape).Idx → EReal) (b : Fin B) (h w : Nat) (f : Fin F) : EReal :=
  (∑ k : Fin 576, tap x b h w k.val * kern (ix2 k f)) + bias (ix1 f)

/-- The whole result array. -/
def conv (x : (⟨4, ![16, 128, 128, 64]⟩ : Shape).Idx → EReal) (kern : (⟨2, ![576, 256]⟩ : Shape).Idx → EReal)
    (bias : (⟨1, ![256]⟩ : Shape).Idx → EReal) : (⟨4, ![16, 128, 128, 256]⟩ : Shape).Idx → EReal :=
  fun i => convAt x kern bias (i 0) (i 1).val (i 2).val (i 3)

/-- Two readings of an image agree when their coordinates do. -/
theorem read_congr {B : Nat} (x : (⟨4, ![B, 128, 128, 64]⟩ : Shape).Idx → EReal) (b : Fin B) {h h' w w' : Fin 128} {c c' : Fin 64}
    (hh : h.val = h'.val) (hw : w.val = w'.val) (hc : c.val = c'.val) : x (ix4 b h w c) = x (ix4 b h' w' c') := by
  rw [Fin.ext hh, Fin.ext hw, Fin.ext hc]

end Cert.CircConv

end
-- ==== Proof.RefRolls.lean ====
/-
  `jnp.roll` of the image along its rows or its columns, as the reference spells it: the rows (columns) `p..127`
  of the array joined to its rows (columns) `0..p-1` — `p = 1` rolls by −1, `p = 0` by 0 (the second slice is empty)
  and `p = 127` by +1.  Read at `(b, h, w, c)` the join is the array at the same index with the rolled coordinate
  moved by `p`, wrapping round at 128.
-/
import Idealize.ShloMosaic.Lib.Pipeline.Value
import Idealize.ShloMosaic.Lib.ValueIdx
import proofs.«123447_j77137612636252_2_alg».proof.Proof.Spec

noncomputable section

namespace Cert.CircConv

open Idealize.ShloMosaic Idealize.ShloMosaic.ValueIdx

variable {α : Type}

/-- Rows `p..127` joined to rows `0..p-1`: row `h` of the result is row `(h + p) mod 128`. -/
theorem roll_rows (p : Nat) (y : (T4 16 128 128 64).Idx → α) (h₁ : (T4 16 128 128 64).Slices ![0, p, 0, 0] (T4 16 (128 - p) 128 64))
    (h₂ : (T4 16 128 128 64).Slices ![0, 0, 0, 0] (T4 16 p 128 64))
    (hc : Shape.Concatenates [T4 16 (128 - p) 128 64, T4 16 p 128 64] (T4 16 128 128 64) 1)
    (b : Fin 16) (h w : Fin 128) (c : Fin 64) :
    concatenate (T4 16 128 128 64) 1 [⟨T4 16 (128 - p) 128 64, extractStridedSlice (T4 16 (128 - p) 128 64) ![0, p, 0, 0] y h₁⟩,
        ⟨T4 16 p 128 64, extractStridedSlice (T4 16 p 128 64) ![0, 0, 0, 0] y h₂⟩] hc (ix4 b h w c)
      = y (ix4 b (wrap (h.val + p)) w c) := by
  have hh := h.isLt
  have hp : 0 + p ≤ 128 := h₂.2 1
  by_cases hlt : h.val < 128 - p
  · refine (concatenate_pair_apply_left 1 _ _ hc (ix4 b h w c) rfl (ix4 b ⟨h.val, hlt⟩ w c) (fun a => ?_)).trans ?_
    · match a with
      | ⟨0, _⟩ => rfl
      | ⟨1, _⟩ => rfl
      | ⟨2, _⟩ => rfl
      | ⟨3, _⟩ => rfl
    · refine extractStridedSlice_apply _ y h₁ _ _ (fun a => ?_)
      match a with
      | ⟨0, _⟩ => show b.val = 0 + b.val; omega
      | ⟨1, _⟩ => show (h.val + p) % 128 = p + h.val; omega
      | ⟨2, _⟩ => show w.val = 0 + w.val; omega
      | ⟨3, _⟩ => show c.val = 0 + c.val; omega
  · refine (concatenate_pair_apply_right 1 _ _ hc (ix4 b h w c) rfl rfl (ix4 b ⟨h.val - (128 - p), by omega⟩ w c) (fun a hb => ?_) ?_).trans ?_
    · match a with
      | ⟨0, _⟩ => rfl
      | ⟨1, _⟩ => exact absurd rfl hb
      | ⟨2, _⟩ => rfl
      | ⟨3, _⟩ => rfl
    · show h.val - (128 - p) + (128 - p) = h.val; omega
    · refine extractStridedSlice_apply _ y h₂ _ _ (fun a => ?_)
      match a with
      | ⟨0, _⟩ => show b.val = 0 + b.val; omega
      | ⟨1, _⟩ => show (h.val + p) % 128 = 0 + (h.val - (128 - p)); omega
      | ⟨2, _⟩ => show w.val = 0 + w.val; omega
      | ⟨3, _⟩ => show c.val = 0 + c.val; omega

/-- Columns `p..127` joined to columns `0..p-1`: column `w` of the result is column `(w + p) mod 128`. -/
theorem roll_cols (p : Nat) (y : (T4 16 128 128 64).Idx → α) (h₁ : (T4 16 128 128 64).Slices ![0, 0, p, 0] (T4 16 128 (128 - p) 64))
    (h₂ : (T4 16 128 128 64).Slices ![0, 0, 0, 0] (T4 16 128 p 64))
    (hc : Shape.Concatenates [T4 16 128 (128 - p) 64, T4 16 128 p 64] (T4 16 128 128 64) 2)
    (b : Fin 16) (h w : Fin 128) (c : Fin 64) :
    concatenate (T4 16 128 128 64) 2 [⟨T4 16 128 (128 - p) 64, extractStridedSlice (T4 16 128 (128 - p) 64) ![0, 0, p, 0] y h₁⟩,
        ⟨T4 16 128 p 64, extractStridedSlice (T4 16 128 p 64) ![0, 0, 0, 0] y h₂⟩] hc (ix4 b h w c)
      = y (ix4 b h (wrap (w.val + p)) c) := by
  have hw := w.isLt
  have hp : 0 + p ≤ 128 := h₂.2 2
  by_cases hlt : w.val < 128 - p
  · refine (concatenate_pair_apply_left 2 _ _ hc (ix4 b h w c) rfl (ix4 b h ⟨w.val, hlt⟩ c) (fun a => ?_)).trans ?_
    · match a with
      | ⟨0, _⟩ => rfl
      | ⟨1, _⟩ => rfl
      | ⟨2, _⟩ => rfl
      | ⟨3, _⟩ => rfl
    · refine extractStridedSlice_apply _ y h₁ _ _ (fun a => ?_)
      match a with
      | ⟨0, _⟩ => show b.val = 0 + b.val; omega
      | ⟨1, _⟩ => show h.val = 0 + h.val; omega
      | ⟨2, _⟩ => show (w.val + p) % 128 = p + w.val; omega
      | ⟨3, _⟩ => show c.val = 0 + c.val; omega
  · refine (concatenate_pair_apply_right 2 _ _ hc (ix4 b h w c) rfl rfl (ix4 b h ⟨w.val - (128 - p), by omega⟩ c) (fun a hb => ?_) ?_).trans ?_
    · match a with
      | ⟨0, _⟩ => rfl
      | ⟨1, _⟩ => rfl
      | ⟨2, _⟩ => exact absurd rfl hb
      | ⟨3, _⟩ => rfl
    · show w.val - (128 - p) + (128 - p) = w.val; omega
    · refine extractStridedSlice_apply _ y h₂ _ _ (fun a => ?_)
      match a with
      | ⟨0, _⟩ => show b.val = 0 + b.val; omega
      | ⟨1, _⟩ => show h.val = 0 + h.val; omega
      | ⟨2, _⟩ => show (w.val + p) % 128 = 0 + (w.val - (128 - p)); omega
      | ⟨3, _⟩ => show c.val = 0 + c.val; omega

end Cert.CircConv

end
-- ==== Proof.RefValue.lean ====
/-
  The reference, read at an index, is the convolution `conv`.

  The reference rolls the image nine times (`jnp.roll` by −1, 0 or +1 along the rows and along the columns, each
  spelt as slices joined: `rolled_twice`), stacks the nine rolled copies on a new axis, flattens that axis with
  the channels into 576 entries (`stacked`: entry `k` is channel `k % 64` of copy `k / 64`), contracts the 576
  entries against the weights and adds the bias (`ref_eq_conv`).
-/
import proofs.«123447_j77137612636252_2_alg».proof.Proof.RefReadP
import proofs.«123447_j77137612636252_2_alg».proof.Proof.RefRolls

noncomputable section

open scoped BigOperators

namespace Cert.ReferenceIdeal.Hand

open Idealize.ShloMosaic Idealize.ShloMosaic.ValueIdx Cert.ReferenceIdeal Cert.ReferenceIdeal.Gen
open Cert.ReferenceIdeal.ReadP Cert.CircConv

/-- The image argument's contents at `Ideal`. -/
abbrev Img : Type := (⟨S16x128x128x64, .f32⟩ : BufTy).Contents (Elt Ideal)

/-- An array rolled by `pr` along the rows, then by `pc` along the columns, each roll two slices joined. -/
theorem rolled_twice (pr pc : Nat) (x0 : Img)
    (h₁ : S16x128x128x64.Slices ![0, pr, 0, 0] (T4 16 (128 - pr) 128 64)) (h₂ : S16x128x128x64.Slices ![0, 0, 0, 0] (T4 16 pr 128 64))
    (hc₁ : Shape.Concatenates [T4 16 (128 - pr) 128 64, T4 16 pr 128 64] S16x128x128x64 1)
    (h₃ : S16x128x128x64.Slices ![0, 0, pc, 0] (T4 16 128 (128 - pc) 64)) (h₄ : S16x128x128x64.Slices ![0, 0, 0, 0] (T4 16 128 pc 64))
    (hc₂ : Shape.Concatenates [T4 16 128 (128 - pc) 64, T4 16 128 pc 64] S16x128x128x64 2)
    (b : Fin 16) (h w : Fin 128) (c : Fin 64) :
    concatenate S16x128x128x64 2
        [⟨T4 16 128 (128 - pc) 64, extractStridedSlice (T4 16 128 (128 - pc) 64) ![0, 0, pc, 0]
            (concatenate S16x128x128x64 1 [⟨T4 16 (128 - pr) 128 64, extractStridedSlice (T4 16 (128 - pr) 128 64) ![0, pr, 0, 0] x0 h₁⟩,
              ⟨T4 16 pr 128 64, extractStridedSlice (T4 16 pr 128 64) ![0, 0, 0, 0] x0 h₂⟩] hc₁) h₃⟩,
          ⟨T4 16 128 pc 64, extractStridedSlice (T4 16 128 pc 64) ![0, 0, 0, 0]
            (concatenate S16x128x128x64 1 [⟨T4 16 (128 - pr) 128 64, extractStridedSlice (T4 16 (128 - pr) 128 64) ![0, pr, 0, 0] x0 h₁⟩,
              ⟨T4 16 pr 128 64, extractStridedSlice (T4 16 pr 128 64) ![0, 0, 0, 0] x0 h₂⟩] hc₁) h₄⟩] hc₂ (ix4 b h w c)
      = x0 (ix4 b (wrap (h.val + pr)) (wrap (w.val + pc)) c) :=
  (roll_cols pc _ h₃ h₄ hc₂ b h w c).trans (roll_rows pr x0 h₁ h₂ hc₁ b h _ c)

/-- Copy 0: rows rolled by −1, columns by −1. -/
theorem rolled0 (x0 : Img) (b : Fin 16) (h w : Fin 128) (c : Fin 64) :
    val_main_v0 (F := Ideal) x0 (ix4 b h w c) = x0 (ix4 b (srcRow 0 h.val) (srcCol 0 w.val) c) := by
  have hh := h.isLt
  have hw := w.isLt
  unfold val_main_v0 val_main_call0_v3 val_main_call0_v4 val_main_call0_v2 val_main_call0_v0 val_main_call0_v1
  refine (rolled_twice 1 1 x0 _ _ _ _ _ _ b h w c).trans (read_congr x0 b ?_ ?_ rfl) <;>
    simp only [wrap_val, srcRow_val, srcCol_val] <;> omega

/-- Copy 1: rows as they are, columns rolled by −1. -/
theorem rolled1 (x0 : Img) (b : Fin 16) (h w : Fin 128) (c : Fin 64) :
    val_main_v1 (F := Ideal) x0 (ix4 b h w c) = x0 (ix4 b (srcRow 1 h.val) (srcCol 1 w.val) c) := by
  have hh := h.isLt
  have hw := w.isLt
  unfold val_main_v1 val_main_call1_v3 val_main_call1_v4 val_main_call1_v2 val_main_call1_v0 val_main_call1_v1
  refine (rolled_twice 0 1 x0 _ _ _ _ _ _ b h w c).trans (read_congr x0 b ?_ ?_ rfl) <;>
    simp only [wrap_val, srcRow_val, srcCol_val] <;> omega

/-- Copy 2: rows rolled by +1, columns by −1. -/
theorem rolled2 (x0 : Img) (b : Fin 16) (h w : Fin 128) (c : Fin 64) :
    val_main_v2 (F := Ideal) x0 (ix4 b h w c) = x0 (ix4 b (srcRow 2 h.val) (srcCol 2 w.val) c) := by
  have hh := h.isLt
  have hw := w.isLt
  unfold val_main_v2 val_main_call2_v3 val_main_call2_v4 val_main_call2_v2 val_main_call2_v0 val_main_call2_v1
  refine (rolled_twice 127 1 x0 _ _ _ _ _ _ b h w c).trans (read_congr x0 b ?_ ?_ rfl) <;>
    simp only [wrap_val, srcRow_val, srcCol_val] <;> omega

/-- Copy 3: rows rolled by −1, columns as they are. -/
theorem rolled3 (x0 : Img) (b : Fin 16) (h w : Fin 128) (c : Fin 64) :
    val_main_v3 (F := Ideal) x0 (ix4 b h w c) = x0 (ix4 b (srcRow 3 h.val) (srcCol 3 w.val) c) := by
  have hh := h.isLt
  have hw := w.isLt
  unfold val_main_v3 val_main_call3_v3 val_main_call3_v4 val_main_call3_v2 val_main_call3_v0 val_main_call3_v1
  refine (rolled_twice 1 0 x0 _ _ _ _ _ _ b h w c).trans (read_congr x0 b ?_ ?_ rfl) <;>
    simp only [wrap_val, srcRow_val, srcCol_val] <;> omega

/-- Copy 4: the image itself. -/
theorem rolled4 (x0 : Img) (b : Fin 16) (h w : Fin 128) (c : Fin 64) :
    val_main_v4 (F := Ideal) x0 (ix4 b h w c) = x0 (ix4 b (srcRow 4 h.val) (srcCol 4 w.val) c) := by
  have hh := h.isLt
  have hw := w.isLt
  unfold val_main_v4 val_main_call4_v3 val_main_call4_v4 val_main_call4_v2 val_main_call4_v0 val_main_call4_v1
  refine (rolled_twice 0 0 x0 _ _ _ _ _ _ b h w c).trans (read_congr x0 b ?_ ?_ rfl) <;>
    simp only [wrap_val, srcRow_val, srcCol_val] <;> omega

/-- Copy 5: rows rolled by +1, columns as they are. -/
theorem rolled5 (x0 : Img) (b : Fin 16) (h w : Fin 128) (c : Fin 64) :
    val_main_v5 (F := Ideal) x0 (ix4 b h w c) = x0 (ix4 b (srcRow 5 h.val) (srcCol 5 w.val) c) := by
  have hh := h.isLt
  have hw := w.isLt
  unfold val_main_v5 val_main_call5_v3 val_main_call5_v4 val_main_call5_v2 val_main_call5_v0 val_main_call5_v1
  refine (rolled_twice 127 0 x0 _ _ _ _ _ _ b h w c).trans (read_congr x0 b ?_ ?_ rfl) <;>
    simp only [wrap_val, srcRow_val, srcCol_val] <;> omega

/-- Copy 6: rows rolled by −1, columns by +1. -/
theorem rolled6 (x0 : Img) (b : Fin 16) (h w : Fin 128) (c : Fin 64) :
    val_main_v6 (F := Ideal) x0 (ix4 b h w c) = x0 (ix4 b (srcRow 6 h.val) (srcCol 6 w.val) c) := by
  have hh := h.isLt
  have hw := w.isLt
  unfold val_main_v6 val_main_call6_v3 val_main_call6_v4 val_main_call6_v2 val_main_call6_v0 val_main_call6_v1
  refine (rolled_twice 1 127 x0 _ _ _ _ _ _ b h w c).trans (read_congr x0 b ?_ ?_ rfl) <;>
    simp only [wrap_val, srcRow_val, srcCol_val] <;> omega

/-- Copy 7: rows as they are, columns rolled by +1. -/
theorem rolled7 (x0 : Img) (b : Fin 16) (h w : Fin 128) (c : Fin 64) :
    val_main_v7 (F := Ideal) x0 (ix4 b h w c) = x0 (ix4 b (srcRow 7 h.val) (srcCol 7 w.val) c) := by
  have hh := h.isLt
  have hw := w.isLt
  unfold val_main_v7 val_main_call7_v3 val_main_call7_v4 val_main_call7_v2 val_main_call7_v0 val_main_call7_v1
  refine (rolled_twice 0 127 x0 _ _ _ _ _ _ b h w c).trans (read_congr x0 b ?_ ?_ rfl) <;>
    simp only [wrap_val, srcRow_val, srcCol_val] <;> omega

/-- Copy 8: rows rolled by +1, columns by +1. -/
theorem rolled8 (x0 : Img) (b : Fin 16) (h w : Fin 128) (c : Fin 64) :
    val_main_v8 (F := Ideal) x0 (ix4 b h w c) = x0 (ix4 b (srcRow 8 h.val) (srcCol 8 w.val) c) := by
  have hh := h.isLt
  have hw := w.isLt
  unfold val_main_v8 val_main_call8_v3 val_main_call8_v4 val_main_call8_v2 val_main_call8_v0 val_main_call8_v1
  refine (rolled_twice 127 127 x0 _ _ _ _ _ _ b h w c).trans (read_congr x0 b ?_ ?_ rfl) <;>
    simp only [wrap_val, srcRow_val, srcCol_val] <;> omega

/-- A copy given a new unit axis in front of the channels, read at `(b, h, w, 0, c)`: the copy at `(b, h, w, c)`. -/
theorem unsqueeze_apply (y : S16x128x128x64.Idx → EReal) (hb : S16x128x128x64.BroadcastsInDim S16x128x128x1x64 ![0, 1, 2, 4])
    (b : Fin 16) (h w : Fin 128) (c : Fin 64) :
    broadcastInDim S16x128x128x1x64 ![0, 1, 2, 4] hb y (ix5 b h w 0 c) = y (ix4 b h w c) := by
  refine broadcastInDim_apply _ hb y _ _ (fun a => ?_)
  match a with
  | ⟨0, _⟩ => show b.val = if (16 : Nat) = 1 then 0 else b.val; rw [if_neg (by decide)]
  | ⟨1, _⟩ => show h.val = if (128 : Nat) = 1 then 0 else h.val; rw [if_neg (by decide)]
  | ⟨2, _⟩ => show w.val = if (128 : Nat) = 1 then 0 else w.val; rw [if_neg (by decide)]
  | ⟨3, _⟩ => show c.val = if (64 : Nat) = 1 then 0 else c.val; rw [if_neg (by decide)]

/-- Copy `n` of a stack of copies along the new axis: entry `(b, h, w, n, c)` of the stack is the copy at `(b, h, w, 0, c)`. -/
theorem stack_piece (xs : List ((s : Shape) × (s.Idx → EReal))) (hc : Shape.Concatenates (xs.map (·.1)) S16x128x128x9x64 3)
    (n : Nat) (hn : n < xs.length) (p : S16x128x128x1x64.Idx → EReal) (hx : xs[n] = ⟨S16x128x128x1x64, p⟩)
    (hpre : (((xs.take n).map (·.1)).map fun s => if h : s.rank = S16x128x128x9x64.rank then s.size ((3 : Fin 5).cast h.symm) else 0).sum = n)
    (b : Fin 16) (h w : Fin 128) (s : Fin 9) (c : Fin 64) (hs : s.val = n) :
    concatenate S16x128x128x9x64 3 xs hc (ix5 b h w s c) = p (ix5 b h w 0 c) := by
  refine concatenate_apply_piece 3 xs hc (ix5 b h w s c) n hn S16x128x128x1x64 p hx rfl n hpre (ix5 b h w 0 c) (fun a ha => ?_) ?_
  · match a with
    | ⟨0, _⟩ => rfl
    | ⟨1, _⟩ => rfl
    | ⟨2, _⟩ => rfl
    | ⟨3, _⟩ => exact absurd rfl ha
    | ⟨4, _⟩ => rfl
  · show n + 0 = s.val; omega

/-- The nine copies stacked and flattened: entry `k` of the 576 at pixel `(h, w)` is `tap`. -/
theorem stacked (x0 : Img) (b : Fin 16) (h w : Fin 128) (k : Fin 576) :
    val_main_v19 (F := Ideal) x0 (ix4 b h w k) = tap x0 b h.val w.val k.val := by
  have hk := k.isLt
  have hb := b.isLt
  have hh := h.isLt
  have hw := w.isLt
  have hc64 : k.val % 64 < 64 := Nat.mod_lt _ (by norm_num)
  unfold val_main_v19
  refine (shapeCast_apply _ _ (ix4 b h w k) (ix5 b h w ⟨k.val / 64, by omega⟩ ⟨k.val % 64, hc64⟩) (by
    rw [Shape.rowMajor_val_five, Shape.rowMajor_val_four]
    show (((b.val * 128 + h.val) * 128 + w.val) * 9 + k.val / 64) * 64 + k.val % 64 = ((b.val * 128 + h.val) * 128 + w.val) * 576 + k.val
    omega)).trans ?_
  unfold val_main_v18 tap
  rcases (show k.val / 64 = 0 ∨ k.val / 64 = 1 ∨ k.val / 64 = 2 ∨ k.val / 64 = 3 ∨ k.val / 64 = 4 ∨ k.val / 64 = 5
      ∨ k.val / 64 = 6 ∨ k.val / 64 = 7 ∨ k.val / 64 = 8 by omega) with e | e | e | e | e | e | e | e | e
  · refine (stack_piece _ _ 0 (by simp) (val_main_v9 (F := Ideal) x0) rfl rfl b h w _ _ e).trans ?_
    unfold val_main_v9
    refine (unsqueeze_apply _ _ b h w _).trans ((rolled0 x0 b h w _).trans ?_)
    rw [e]; rfl
  · refine (stack_piece _ _ 1 (by simp) (val_main_v10 (F := Ideal) x0) rfl rfl b h w _ _ e).trans ?_
    unfold val_main_v10
    refine (unsqueeze_apply _ _ b h w _).trans ((rolled1 x0 b h w _).trans ?_)
    rw [e]; rfl
  · refine (stack_piece _ _ 2 (by simp) (val_main_v11 (F := Ideal) x0) rfl rfl b h w _ _ e).trans ?_
    unfold val_main_v11
    refine (unsqueeze_apply _ _ b h w _).trans ((rolled2 x0 b h w _).trans ?_)
    rw [e]; rfl
  · refine (stack_piece _ _ 3 (by simp) (val_main_v12 (F := Ideal) x0) rfl rfl b h w _ _ e).trans ?_
    unfold val_main_v12
    refine (unsqueeze_apply _ _ b h w _).trans ((rolled3 x0 b h w _).trans ?_)
    rw [e]; rfl
  · refine (stack_piece _ _ 4 (by simp) (val_main_v13 (F := Ideal) x0) rfl rfl b h w _ _ e).trans ?_
    unfold val_main_v13
    refine (unsqueeze_apply _ _ b h w _).trans ((rolled4 x0 b h w _).trans ?_)
    rw [e]; rfl
  · refine (stack_piece _ _ 5 (by simp) (val_main_v14 (F := Ideal) x0) rfl rfl b h w _ _ e).trans ?_
    unfold val_main_v14
    refine (unsqueeze_apply _ _ b h w _).trans ((rolled5 x0 b h w _).trans ?_)
    rw [e]; rfl
  · refine (stack_piece _ _ 6 (by simp) (val_main_v15 (F := Ideal) x0) rfl rfl b h w _ _ e).trans ?_
    unfold val_main_v15
    refine (unsqueeze_apply _ _ b h w _).trans ((rolled6 x0 b h w _).trans ?_)
    rw [e]; rfl
  · refine (stack_piece _ _ 7 (by simp) (val_main_v16 (F := Ideal) x0) rfl rfl b h w _ _ e).trans ?_
    unfold val_main_v16
    refine (unsqueeze_apply _ _ b h w _).trans ((rolled7 x0 b h w _).trans ?_)
    rw [e]; rfl
  · refine (stack_piece _ _ 8 (by simp) (val_main_v17 (F := Ideal) x0) rfl rfl b h w _ _ e).trans ?_
    unfold val_main_v17
    refine (unsqueeze_apply _ _ b h w _).trans ((rolled8 x0 b h w _).trans ?_)
    rw [e]; rfl

/-- THE REFERENCE IS THE CONVOLUTION: its result term, index by index. -/
theorem ref_eq_conv (x0 : Img) (x1 : (⟨S576x256, .f32⟩ : BufTy).Contents (Elt Ideal)) (x2 : (⟨S256, .f32⟩ : BufTy).Contents (Elt Ideal)) :
    val_main_v23 (F := Ideal) x0 x1 x2 = conv x0 x1 x2 := by
  funext i
  obtain ⟨b, h, w, f, rfl⟩ : ∃ (b : Fin 16) (h w : Fin 128) (f : Fin 256), i = ix4 b h w f := ⟨i 0, i 1, i 2, i 3, eq_ix4 i⟩
  rw [val_main_v23_apply, val_main_v20_apply, val_main_v22_apply, val_main_v21_apply]
  have el : ∀ k : Fin 576, lidx_main_v20 (ix4 b h w f) k = ix4 b h w k := fun k => funext fun a =>
    match a with
    | ⟨0, _⟩ => rfl
    | ⟨1, _⟩ => rfl
    | ⟨2, _⟩ => rfl
    | ⟨3, _⟩ => rfl
  have er : ∀ k : Fin 576, ridx_main_v20 (ix4 b h w f) k = ix2 k f := fun k => funext fun a =>
    match a with
    | ⟨0, _⟩ => rfl
    | ⟨1, _⟩ => rfl
  have eb : idx_main_v21 (idx_main_v22 (ix4 b h w f)) = ix1 f := funext fun a =>
    match a with
    | ⟨0, _⟩ => rfl
  rw [eb]
  show (∑ k : Fin 576, val_main_v19 (F := Ideal) x0 (lidx_main_v20 (ix4 b h w f) k) * x1 (ridx_main_v20 (ix4 b h w f) k)) + x2 (ix1 f)
    = convAt x0 x1 x2 b h.val w.val f
  unfold convAt
  refine congrArg (· + x2 (ix1 f)) (Finset.sum_congr rfl fun k _ => ?_)
  rw [el, er, stacked]

end Cert.ReferenceIdeal.Hand

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«123447_j77137612636252_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.Bands.lean ====
/-
  The kernel's pieces of the image, read at an index.

  The kernel holds one image as a `128 × 128 × 64` array and builds, for eight output rows at a time, the nine
  shifted copies out of slices and joins:
  * eight consecutive rows from row `o` (`rows_apply`), or, where the eight rows run over the image's edge, the last
    `q` rows of the image joined to its first `8 - q` (`rows_wrap`): in both cases row `r` of the band is image row
    `(o + r) mod 128`;
  * a band with its columns `p..127` joined to its columns `0..p-1` (`cols_roll`; `p = 1` is the shift by one column
    to the left, `p = 127` the shift by one to the right): column `w` of the result is column `(w + p) mod 128`;
  * nine bands joined along the channel axis (`join9_apply`): entry `64 s + c` is channel `c` of band `s`.
-/
import Idealize.ShloMosaic.Lib.Pipeline.Value
import Idealize.ShloMosaic.Lib.ValueIdx
import proofs.«123447_j77137612636252_2_alg».proof.Proof.Spec

noncomputable section

namespace Cert.CircConv

open Idealize.ShloMosaic Idealize.ShloMosaic.ValueIdx

variable {α : Type}

/-- Eight consecutive rows of the image from row `o`: row `r` of the band is image row `o + r`. -/
theorem rows_apply (o : Nat) (v : (T3 128 128 64).Idx → α) (h : (T3 128 128 64).Slices ![o, 0, 0] (T3 8 128 64))
    (r : Fin 8) (w : Fin 128) (c : Fin 64) :
    extractStridedSlice (T3 8 128 64) ![o, 0, 0] v h (ix3 r w c) = v (ix3 (wrap (o + r.val)) w c) := by
  have ho : o + 8 ≤ 128 := h.2 0
  have hr := r.isLt
  refine extractStridedSlice_apply _ v h _ _ (fun a => ?_)
  match a with
  | ⟨0, _⟩ => show (o + r.val) % 128 = o + r.val; omega
  | ⟨1, _⟩ => show w.val = 0 + w.val; omega
  | ⟨2, _⟩ => show c.val = 0 + c.val; omega

/-- The image's last `q` rows (from row `o = 128 - q`) joined to its first `8 - q`: row `r` of the band is image row
    `(o + r) mod 128`. -/
theorem rows_wrap (q o : Nat) (hq : o + q = 128) (hq8 : q ≤ 8) (v : (T3 128 128 64).Idx → α)
    (h₁ : (T3 128 128 64).Slices ![o, 0, 0] (T3 q 128 64)) (h₂ : (T3 128 128 64).Slices ![0, 0, 0] (T3 (8 - q) 128 64))
    (hc : Shape.Concatenates [T3 q 128 64, T3 (8 - q) 128 64] (T3 8 128 64) 0) (r : Fin 8) (w : Fin 128) (c : Fin 64) :
    concatenate (T3 8 128 64) 0 [⟨T3 q 128 64, extractStridedSlice (T3 q 128 64) ![o, 0, 0] v h₁⟩,
        ⟨T3 (8 - q) 128 64, extractStridedSlice (T3 (8 - q) 128 64) ![0, 0, 0] v h₂⟩] hc (ix3 r w c)
      = v (ix3 (wrap (o + r.val)) w c) := by
  have hr := r.isLt
  by_cases hlt : r.val < q
  · refine (concatenate_pair_apply_left 0 _ _ hc (ix3 r w c) rfl (ix3 ⟨r.val, hlt⟩ w c) (fun b => ?_)).trans ?_
    · match b with
      | ⟨0, _⟩ => rfl
      | ⟨1, _⟩ => rfl
      | ⟨2, _⟩ => rfl
    · refine extractStridedSlice_apply _ v h₁ _ _ (fun a => ?_)
      match a with
      | ⟨0, _⟩ => show (o + r.val) % 128 = o + r.val; omega
      | ⟨1, _⟩ => show w.val = 0 + w.val; omega
      | ⟨2, _⟩ => show c.val = 0 + c.val; omega
  · refine (concatenate_pair_apply_right 0 _ _ hc (ix3 r w c) rfl rfl (ix3 ⟨r.val - q, by omega⟩ w c) (fun b hb => ?_) ?_).trans ?_
    · match b with
      | ⟨0, _⟩ => exact absurd rfl hb
      | ⟨1, _⟩ => rfl
      | ⟨2, _⟩ => rfl
    · show r.val - q + q = r.val; omega
    · refine extractStridedSlice_apply _ v h₂ _ _ (fun a => ?_)
      match a with
      | ⟨0, _⟩ => show (o + r.val) % 128 = 0 + (r.val - q); omega
      | ⟨1, _⟩ => show w.val = 0 + w.val; omega
      | ⟨2, _⟩ => show c.val = 0 + c.val; omega

/-- The image's last row joined to its first seven: image rows `(127 + r) mod 128`. -/
theorem rows_wrap_top (v : (T3 128 128 64).Idx → α) (h₁ : (T3 128 128 64).Slices ![127, 0, 0] (T3 1 128 64))
    (h₂ : (T3 128 128 64).Slices ![0, 0, 0] (T3 7 128 64))
    (hc : Shape.Concatenates [T3 1 128 64, T3 7 128 64] (T3 8 128 64) 0) (r : Fin 8) (w : Fin 128) (c : Fin 64) :
    concatenate (T3 8 128 64) 0 [⟨T3 1 128 64, extractStridedSlice (T3 1 128 64) ![127, 0, 0] v h₁⟩,
        ⟨T3 7 128 64, extractStridedSlice (T3 7 128 64) ![0, 0, 0] v h₂⟩] hc (ix3 r w c)
      = v (ix3 (wrap (127 + r.val)) w c) :=
  rows_wrap 1 127 rfl (by norm_num) v h₁ h₂ hc r w c

/-- The image's last seven rows joined to its first: image rows `(121 + r) mod 128`. -/
theorem rows_wrap_bottom (v : (T3 128 128 64).Idx → α) (h₁ : (T3 128 128 64).Slices ![121, 0, 0] (T3 7 128 64))
    (h₂ : (T3 128 128 64).Slices ![0, 0, 0] (T3 1 128 64))
    (hc : Shape.Concatenates [T3 7 128 64, T3 1 128 64] (T3 8 128 64) 0) (r : Fin 8) (w : Fin 128) (c : Fin 64) :
    concatenate (T3 8 128 64) 0 [⟨T3 7 128 64, extractStridedSlice (T3 7 128 64) ![121, 0, 0] v h₁⟩,
        ⟨T3 1 128 64, extractStridedSlice (T3 1 128 64) ![0, 0, 0] v h₂⟩] hc (ix3 r w c)
      = v (ix3 (wrap (121 + r.val)) w c) :=
  rows_wrap 7 121 rfl (by norm_num) v h₁ h₂ hc r w c

/-- A band's columns `p..127` joined to its columns `0..p-1`: column `w` of the result is column `(w + p) mod 128`. -/
theorem cols_roll (p : Nat) (u : (T3 8 128 64).Idx → α) (h₁ : (T3 8 128 64).Slices ![0, p, 0] (T3 8 (128 - p) 64))
    (h₂ : (T3 8 128 64).Slices ![0, 0, 0] (T3 8 p 64))
    (hc : Shape.Concatenates [T3 8 (128 - p) 64, T3 8 p 64] (T3 8 128 64) 1) (r : Fin 8) (w : Fin 128) (c : Fin 64) :
    concatenate (T3 8 128 64) 1 [⟨T3 8 (128 - p) 64, extractStridedSlice (T3 8 (128 - p) 64) ![0, p, 0] u h₁⟩,
        ⟨T3 8 p 64, extractStridedSlice (T3 8 p 64) ![0, 0, 0] u h₂⟩] hc (ix3 r w c)
      = u (ix3 r (wrap (w.val + p)) c) := by
  have hw := w.isLt
  have hp : 0 + p ≤ 128 := h₂.2 1
  by_cases hlt : w.val < 128 - p
  · refine (concatenate_pair_apply_left 1 _ _ hc (ix3 r w c) rfl (ix3 r ⟨w.val, hlt⟩ c) (fun b => ?_)).trans ?_
    · match b with
      | ⟨0, _⟩ => rfl
      | ⟨1, _⟩ => rfl
      | ⟨2, _⟩ => rfl
    · refine extractStridedSlice_apply _ u h₁ _ _ (fun a => ?_)
      match a with
      | ⟨0, _⟩ => show r.val = 0 + r.val; omega
      | ⟨1, _⟩ => show (w.val + p) % 128 = p + w.val; omega
      | ⟨2, _⟩ => show c.val = 0 + c.val; omega
  · refine (concatenate_pair_apply_right 1 _ _ hc (ix3 r w c) rfl rfl (ix3 r ⟨w.val - (128 - p), by omega⟩ c) (fun b hb => ?_) ?_).trans ?_
    · match b with
      | ⟨0, _⟩ => rfl
      | ⟨1, _⟩ => exact absurd rfl hb
      | ⟨2, _⟩ => rfl
    · show w.val - (128 - p) + (128 - p) = w.val; omega
    · refine extractStridedSlice_apply _ u h₂ _ _ (fun a => ?_)
      match a with
      | ⟨0, _⟩ => show r.val = 0 + r.val; omega
      | ⟨1, _⟩ => show (w.val + p) % 128 = 0 + (w.val - (128 - p)); omega
      | ⟨2, _⟩ => show c.val = 0 + c.val; omega

/-- The shift by one column to the left: columns `(w + 1) mod 128`. -/
theorem cols_left (u : (T3 8 128 64).Idx → α) (h₁ : (T3 8 128 64).Slices ![0, 1, 0] (T3 8 127 64))
    (h₂ : (T3 8 128 64).Slices ![0, 0, 0] (T3 8 1 64))
    (hc : Shape.Concatenates [T3 8 127 64, T3 8 1 64] (T3 8 128 64) 1) (r : Fin 8) (w : Fin 128) (c : Fin 64) :
    concatenate (T3 8 128 64) 1 [⟨T3 8 127 64, extractStridedSlice (T3 8 127 64) ![0, 1, 0] u h₁⟩,
        ⟨T3 8 1 64, extractStridedSlice (T3 8 1 64) ![0, 0, 0] u h₂⟩] hc (ix3 r w c)
      = u (ix3 r (wrap (w.val + 1)) c) :=
  cols_roll 1 u h₁ h₂ hc r w c

/-- The shift by one column to the right: columns `(w + 127) mod 128`. -/
theorem cols_right (u : (T3 8 128 64).Idx → α) (h₁ : (T3 8 128 64).Slices ![0, 127, 0] (T3 8 1 64))
    (h₂ : (T3 8 128 64).Slices ![0, 0, 0] (T3 8 127 64))
    (hc : Shape.Concatenates [T3 8 1 64, T3 8 127 64] (T3 8 128 64) 1) (r : Fin 8) (w : Fin 128) (c : Fin 64) :
    concatenate (T3 8 128 64) 1 [⟨T3 8 1 64, extractStridedSlice (T3 8 1 64) ![0, 127, 0] u h₁⟩,
        ⟨T3 8 127 64, extractStridedSlice (T3 8 127 64) ![0, 0, 0] u h₂⟩] hc (ix3 r w c)
      = u (ix3 r (wrap (w.val + 127)) c) :=
  cols_roll 127 u h₁ h₂ hc r w c
/-- Band `n` of a join of bands along the channel axis: entry `64 n + c` of the join is channel `c` of the band. -/
theorem join_piece (xs : List ((s : Shape) × (s.Idx → α))) (hc : Shape.Concatenates (xs.map (·.1)) (T3 8 128 576) 2)
    (n : Nat) (hn : n < xs.length) (Bn : (T3 8 128 64).Idx → α) (hx : xs[n] = ⟨T3 8 128 64, Bn⟩)
    (hpre : (((xs.take n).map (·.1)).map fun s => if h : s.rank = (T3 8 128 576).rank then s.size ((2 : Fin 3).cast h.symm) else 0).sum = 64 * n)
    (r : Fin 8) (w : Fin 128) (k : Fin 576) (c : Fin 64) (hk : k.val = 64 * n + c.val) :
    concatenate (T3 8 128 576) 2 xs hc (ix3 r w k) = Bn (ix3 r w c) := by
  refine concatenate_apply_piece 2 xs hc (ix3 r w k) n hn (T3 8 128 64) Bn hx rfl (64 * n) hpre (ix3 r w c) (fun b hb => ?_) ?_
  · match b with
    | ⟨0, _⟩ => rfl
    | ⟨1, _⟩ => rfl
    | ⟨2, _⟩ => exact absurd rfl hb
  · show 64 * n + c.val = k.val; omega

/-- Nine bands joined along the channel axis, read at `(r, w, k)`: whatever each band is known to be at `(r, w, ·)`. -/
theorem join9_apply (B0 B1 B2 B3 B4 B5 B6 B7 B8 : (T3 8 128 64).Idx → α)
    (hc : Shape.Concatenates [T3 8 128 64, T3 8 128 64, T3 8 128 64, T3 8 128 64, T3 8 128 64, T3 8 128 64, T3 8 128 64,
      T3 8 128 64, T3 8 128 64] (T3 8 128 576) 2) (r : Fin 8) (w : Fin 128) (X : Nat → α)
    (h0 : ∀ c : Fin 64, B0 (ix3 r w c) = X c.val) (h1 : ∀ c : Fin 64, B1 (ix3 r w c) = X (64 + c.val))
    (h2 : ∀ c : Fin 64, B2 (ix3 r w c) = X (128 + c.val)) (h3 : ∀ c : Fin 64, B3 (ix3 r w c) = X (192 + c.val))
    (h4 : ∀ c : Fin 64, B4 (ix3 r w c) = X (256 + c.val)) (h5 : ∀ c : Fin 64, B5 (ix3 r w c) = X (320 + c.val))
    (h6 : ∀ c : Fin 64, B6 (ix3 r w c) = X (384 + c.val)) (h7 : ∀ c : Fin 64, B7 (ix3 r w c) = X (448 + c.val))
    (h8 : ∀ c : Fin 64, B8 (ix3 r w c) = X (512 + c.val)) (k : Fin 576) :
    concatenate (T3 8 128 576) 2 [⟨T3 8 128 64, B0⟩, ⟨T3 8 128 64, B1⟩, ⟨T3 8 128 64, B2⟩, ⟨T3 8 128 64, B3⟩, ⟨T3 8 128 64, B4⟩,
      ⟨T3 8 128 64, B5⟩, ⟨T3 8 128 64, B6⟩, ⟨T3 8 128 64, B7⟩, ⟨T3 8 128 64, B8⟩] hc (ix3 r w k) = X k.val := by
  have hk := k.isLt
  have hc64 : k.val % 64 < 64 := Nat.mod_lt _ (by norm_num)
  rcases (show k.val / 64 = 0 ∨ k.val / 64 = 1 ∨ k.val / 64 = 2 ∨ k.val / 64 = 3 ∨ k.val / 64 = 4 ∨ k.val / 64 = 5
      ∨ k.val / 64 = 6 ∨ k.val / 64 = 7 ∨ k.val / 64 = 8 by omega) with h | h | h | h | h | h | h | h | h
  · refine (join_piece _ _ 0 ?_ B0 ?_ ?_ r w k ⟨k.val % 64, hc64⟩ ?_).trans ((h0 _).trans (congrArg X ?_))
    · simp
    · rfl
    · rfl
    · show k.val = 64 * 0 + k.val % 64; omega
    · show k.val % 64 = k.val; omega
  · refine (join_piece _ _ 1 ?_ B1 ?_ ?_ r w k ⟨k.val % 64, hc64⟩ ?_).trans ((h1 _).trans (congrArg X ?_))
    · simp
    · rfl
    · rfl
    · show k.val = 64 * 1 + k.val % 64; omega
    · show 64 + k.val % 64 = k.val; omega
  · refine (join_piece _ _ 2 ?_ B2 ?_ ?_ r w k ⟨k.val % 64, hc64⟩ ?_).trans ((h2 _).trans (congrArg X ?_))
    · simp
    · rfl
    · rfl
    · show k.val = 64 * 2 + k.val % 64; omega
    · show 128 + k.val % 64 = k.val; omega
  · refine (join_piece _ _ 3 ?_ B3 ?_ ?_ r w k ⟨k.val % 64, hc64⟩ ?_).trans ((h3 _).trans (congrArg X ?_))
    · simp
    · rfl
    · rfl
    · show k.val = 64 * 3 + k.val % 64; omega
    · show 192 + k.val % 64 = k.val; omega
  · refine (join_piece _ _ 4 ?_ B4 ?_ ?_ r w k ⟨k.val % 64, hc64⟩ ?_).trans ((h4 _).trans (congrArg X ?_))
    · simp
    · rfl
    · rfl
    · show k.val = 64 * 4 + k.val % 64; omega
    · show 256 + k.val % 64 = k.val; omega
  · refine (join_piece _ _ 5 ?_ B5 ?_ ?_ r w k ⟨k.val % 64, hc64⟩ ?_).trans ((h5 _).trans (congrArg X ?_))
    · simp
    · rfl
    · rfl
    · show k.val = 64 * 5 + k.val % 64; omega
    · show 320 + k.val % 64 = k.val; omega
  · refine (join_piece _ _ 6 ?_ B6 ?_ ?_ r w k ⟨k.val % 64, hc64⟩ ?_).trans ((h6 _).trans (congrArg X ?_))
    · simp
    · rfl
    · rfl
    · show k.val = 64 * 6 + k.val % 64; omega
    · show 384 + k.val % 64 = k.val; omega
  · refine (join_piece _ _ 7 ?_ B7 ?_ ?_ r w k ⟨k.val % 64, hc64⟩ ?_).trans ((h7 _).trans (congrArg X ?_))
    · simp
    · rfl
    · rfl
    · show k.val = 64 * 7 + k.val % 64; omega
    · show 448 + k.val % 64 = k.val; omega
  · refine (join_piece _ _ 8 ?_ B8 ?_ ?_ r w k ⟨k.val % 64, hc64⟩ ?_).trans ((h8 _).trans (congrArg X ?_))
    · simp
    · rfl
    · rfl
    · show k.val = 64 * 8 + k.val % 64; omega
    · show 512 + k.val % 64 = k.val; omega

end Cert.CircConv

end
-- ==== Proof.Chunk.lean ====
/-
  Eight output rows of one block, read at an index.

  For eight output rows the kernel joins the nine shifted bands along the channel axis into an `8 × 128 × 576` array,
  lays it out as `1024 × 576` (row `128 r + w` is pixel `(r, w)`), multiplies it into the `576 × 128` block of the
  weights, lays the product out as `8 × 128 × 128` again and adds the bias row.  At `(r, w, f)` that is

      Σ_{k < 576} X k · kern (k, f) + bias f,

  where `X (64 s + c)` is channel `c` of band `s` at pixel `(r, w)` — whatever the nine bands are known to be there.
-/
import Idealize.ShloMosaic.PureOps.Ideal.Laws
import Idealize.ShloMosaic.Lib.Pipeline.Value
import Idealize.ShloMosaic.Lib.ValueIdx
import proofs.«123447_j77137612636252_2_alg».proof.Proof.LibMatmul2
import proofs.«123447_j77137612636252_2_alg».proof.Proof.Bands

noncomputable section

open scoped BigOperators

namespace Cert.CircConv

open Idealize.ShloMosaic Idealize.ShloMosaic.ValueIdx

/-- The bias row `[1, 1, 128]` repeated over eight rows of 128 pixels, at `(r, w, f)`: the bias at `f`. -/
theorem bias_apply {α : Type} (v6 : (T3 1 1 128).Idx → α) (hb : (T3 1 1 128).Broadcasts (T3 8 128 128)) (r : Fin 8) (w f : Fin 128) :
    broadcastTo (T3 8 128 128) v6 hb (ix3 r w f) = v6 (ix3 0 0 f) := by
  refine broadcastTo_apply v6 hb _ _ (fun a => ?_)
  match a with
  | ⟨0, _⟩ => show 0 = if (1 : Nat) = 1 then 0 else r.val; rw [if_pos rfl]
  | ⟨1, _⟩ => show 0 = if (1 : Nat) = 1 then 0 else w.val; rw [if_pos rfl]
  | ⟨2, _⟩ => show f.val = if (128 : Nat) = 1 then 0 else f.val; rw [if_neg (by decide)]

/-- Eight output rows of the block at `(0, r, w, f)`, from what the nine bands are at pixel `(r, w)`.  The facts about the
    product's dimension numbers (`hr` … `hr1`) are read off the program's record. -/
theorem chunk_apply (D : DotDims (T2 1024 576) (T2 576 128) (T2 1024 128)) (hr : D.contr.rank = 1)
    (hs : D.contr.size ⟨0, by omega⟩ = 576) (hlc : D.lhsContracting = [1]) (hrc : D.rhsContracting = [0])
    (hl0 : ∀ j q, (D.lhsIdx j q 0).val = (j 0).val) (hr1 : ∀ j q, (D.rhsIdx j q 1).val = (j 1).val)
    (B0 B1 B2 B3 B4 B5 B6 B7 B8 : FVec Ideal (T3 8 128 64) .bf16) (k4 : FVec Ideal (T2 576 128) .bf16)
    (v6 : FVec Ideal (T3 1 1 128) .f32)
    (hc : Shape.Concatenates [T3 8 128 64, T3 8 128 64, T3 8 128 64, T3 8 128 64, T3 8 128 64, T3 8 128 64, T3 8 128 64,
      T3 8 128 64, T3 8 128 64] (T3 8 128 576) 2)
    (h1 : (T3 8 128 576).ShapeCasts (T2 1024 576)) (h2 : (T2 1024 128).ShapeCasts (T3 8 128 128))
    (hb : (T3 1 1 128).Broadcasts (T3 8 128 128)) (h3 : (T3 8 128 128).ShapeCasts (T4 1 8 128 128))
    (r : Fin 8) (w f : Fin 128) (X : Nat → EReal)
    (e0 : ∀ c : Fin 64, B0 (ix3 r w c) = X c.val) (e1 : ∀ c : Fin 64, B1 (ix3 r w c) = X (64 + c.val))
    (e2 : ∀ c : Fin 64, B2 (ix3 r w c) = X (128 + c.val)) (e3 : ∀ c : Fin 64, B3 (ix3 r w c) = X (192 + c.val))
    (e4 : ∀ c : Fin 64, B4 (ix3 r w c) = X (256 + c.val)) (e5 : ∀ c : Fin 64, B5 (ix3 r w c) = X (320 + c.val))
    (e6 : ∀ c : Fin 64, B6 (ix3 r w c) = X (384 + c.val)) (e7 : ∀ c : Fin 64, B7 (ix3 r w c) = X (448 + c.val))
    (e8 : ∀ c : Fin 64, B8 (ix3 r w c) = X (512 + c.val)) :
    shapeCast (T4 1 8 128 128)
        (addf (shapeCast (T3 8 128 128)
            (matmul D none
              (shapeCast (T2 1024 576)
                (concatenate (T3 8 128 576) 2 [⟨T3 8 128 64, B0⟩, ⟨T3 8 128 64, B1⟩, ⟨T3 8 128 64, B2⟩, ⟨T3 8 128 64, B3⟩,
                  ⟨T3 8 128 64, B4⟩, ⟨T3 8 128 64, B5⟩, ⟨T3 8 128 64, B6⟩, ⟨T3 8 128 64, B7⟩, ⟨T3 8 128 64, B8⟩] hc) h1)
              k4 (constant (T2 1024 128) .f32 0x00000000#32)) h2)
          (broadcastTo (T3 8 128 128) v6 hb)) h3 (ix4 0 r w f)
      = (∑ k : Fin 576, X k.val * k4 (ix2 k f)) + v6 (ix3 0 0 f) := by
  have hr8 := r.isLt
  have hw := w.isLt
  have hf := f.isLt
  -- the block's leading unit axis
  refine (shapeCast_apply _ h3 (ix4 0 r w f) (ix3 r w f) (by
    rw [Shape.rowMajor_val_three, Shape.rowMajor_val_four]
    show (r.val * 128 + w.val) * 128 + f.val = ((0 * 8 + r.val) * 128 + w.val) * 128 + f.val
    omega)).trans ?_
  rw [addf_apply, bias_apply]
  refine congrArg (· + v6 (ix3 0 0 f)) ?_
  -- pixel (r, w) is row 128 r + w of the product
  refine (shapeCast_apply _ h2 (ix3 r w f) (ix2 ⟨r.val * 128 + w.val, by omega⟩ f) (by
    rw [Shape.rowMajor_val_two, Shape.rowMajor_val_three]
    show (r.val * 128 + w.val) * 128 + f.val = (r.val * 128 + w.val) * 128 + f.val
    rfl)).trans ?_
  refine (Idealize.ShloMosaic.LibMatmul2.matmul_zero_apply D hr hs hlc hrc hl0 hr1 none _ k4 _ f).trans ?_
  refine Finset.sum_congr rfl fun k _ => congrArg (· * k4 (ix2 k f)) ?_
  -- and of the joined bands
  have hk := k.isLt
  refine (shapeCast_apply _ h1 (ix2 ⟨r.val * 128 + w.val, by omega⟩ k) (ix3 r w k) (by
    rw [Shape.rowMajor_val_three, Shape.rowMajor_val_two]
    show (r.val * 128 + w.val) * 576 + k.val = (r.val * 128 + w.val) * 576 + k.val
    rfl)).trans ?_
  exact join9_apply B0 B1 B2 B3 B4 B5 B6 B7 B8 hc r w X e0 e1 e2 e3 e4 e5 e6 e7 e8 k

end Cert.CircConv

end
-- ==== Proof.KernelRows.lean ====
/-
  Eight output rows of a block as a function of the kernel's three loaded values.

  `rowsOut v2 v4 v6 h w f` is what the kernel stores at row `h`, column `w`, channel `f` of its output block, in
  terms of the image `v2` (`128 × 128 × 64`), the weights' block `v4` (`576 × 128`) and the bias row `v6`
  (`1 × 1 × 128`):  Σ_{k < 576} v2 ((h + 129 - (k/64) % 3) mod 128, (w + 129 - (k/64) / 3) mod 128, k % 64) · v4 (k, f) + v6 f.
  Each of the kernel's sixteen stores writes eight such rows; the lemmas that say so, one per store, all go through
  `chunk_apply` and read the nine bands by the lemmas on slices and joins.
-/
import proofs.«123447_j77137612636252_2_alg».proof.Proof.Gen.KernelIdeal.Skeleton
import proofs.«123447_j77137612636252_2_alg».proof.Proof.Chunk

noncomputable section

open scoped BigOperators

namespace Cert.KernelIdeal.Hand

open Idealize.ShloMosaic Idealize.ShloMosaic.ValueIdx Cert.KernelIdeal Cert.KernelIdeal.Gen Cert.CircConv

/-- Entry `k` of the row of nine shifted copies at pixel `(h, w)` of the image the kernel holds. -/
def tap3 (v2 : (T3 128 128 64).Idx → EReal) (h w k : Nat) : EReal :=
  v2 (ix3 (srcRow (k / 64) h) (srcCol (k / 64) w) (chan k))

/-- What the kernel stores at `(h, w, f)` of its output block. -/
def rowsOut (v2 : (T3 128 128 64).Idx → EReal) (v4 : (T2 576 128).Idx → EReal) (v6 : (T3 1 1 128).Idx → EReal)
    (h w : Nat) (f : Fin 128) : EReal :=
  (∑ k : Fin 576, tap3 v2 h w k.val * v4 (ix2 k f)) + v6 (ix3 0 0 f)

/-- Two readings of the image agree when their coordinates do. -/
theorem read3_congr (v2 : (T3 128 128 64).Idx → EReal) {h h' w w' : Fin 128} {c c' : Fin 64}
    (hh : h.val = h'.val) (hw : w.val = w'.val) (hc : c.val = c'.val) : v2 (ix3 h w c) = v2 (ix3 h' w' c') := by
  rw [Fin.ext hh, Fin.ext hw, Fin.ext hc]

/-- The product's left operand keeps the result's row, -/
theorem dot_lhs_row (j : S1024x128.Idx) (q : dot_S1024x576_S576x128_S1024x128_1_0_0_1_n_n.contr.Idx) :
    (dot_S1024x576_S576x128_S1024x128_1_0_0_1_n_n.lhsIdx j q 0).val = (j 0).val := by
  unfold DotDims.lhsIdx
  rw [dif_neg (show ¬(0 : Fin S1024x576.rank) ∈ dot_S1024x576_S576x128_S1024x128_1_0_0_1_n_n.lhsBatch by decide),
    dif_pos (show (0 : Fin S1024x576.rank) ∈ dot_S1024x576_S576x128_S1024x128_1_0_0_1_n_n.lhsNonContracting by decide)]
  rfl

/-- and its right operand the result's column. -/
theorem dot_rhs_col (j : S1024x128.Idx) (q : dot_S1024x576_S576x128_S1024x128_1_0_0_1_n_n.contr.Idx) :
    (dot_S1024x576_S576x128_S1024x128_1_0_0_1_n_n.rhsIdx j q 1).val = (j 1).val := by
  unfold DotDims.rhsIdx
  rw [dif_neg (show ¬(1 : Fin S576x128.rank) ∈ dot_S1024x576_S576x128_S1024x128_1_0_0_1_n_n.rhsBatch by decide),
    dif_pos (show (1 : Fin S576x128.rank) ∈ dot_S1024x576_S576x128_S1024x128_1_0_0_1_n_n.rhsNonContracting by decide)]
  rfl

/-- One band of one store at pixel `(r, w)`, channel `c`: the slices and joins read off, then the two image
    coordinates compared modulo 128. -/
macro "band_entry" : tactic => `(tactic| (
  intro c
  have hc := c.isLt
  unfold tap3
  simp only [cols_left, cols_right, rows_apply, rows_wrap_top, rows_wrap_bottom]
  refine read3_congr _ ?_ ?_ ?_ <;> simp only [wrap_val, srcRow_val, srcCol_val, chan_val] <;> omega))

/-- A store's value at `(0, r, w, f)`: the product over the joined bands (`chunk_apply`), each band read at the pixel. -/
macro "store_rows" o:term : tactic => `(tactic| (
  try dsimp only
  refine chunk_apply dot_S1024x576_S576x128_S1024x128_1_0_0_1_n_n rfl rfl rfl rfl dot_lhs_row dot_rhs_col
    _ _ _ _ _ _ _ _ _ _ _ _ _ _ _ _ _ _ _ ($o) ?_ ?_ ?_ ?_ ?_ ?_ ?_ ?_ ?_ <;> band_entry))

end Cert.KernelIdeal.Hand

end
-- ==== Proof.KernelStoresA.lean ====
/-
  The kernel's stores of output rows 0–31 of a block, read at an index: each is `rowsOut` at its rows.
-/
import proofs.«123447_j77137612636252_2_alg».proof.Proof.KernelRows

noncomputable section

namespace Cert.KernelIdeal.Hand

open Idealize.ShloMosaic Idealize.ShloMosaic.ValueIdx Cert.KernelIdeal Cert.KernelIdeal.Gen Cert.CircConv

/-- Rows 0–7. The first store's value is computed from the three loaded blocks themselves. -/
theorem store_rows_0 (v0 : Vec Ideal S1x128x128x64 .f32) (v3 : Vec Ideal S576x128 .f32) (v5 : Vec Ideal S128 .f32)
    (r : Fin 8) (w f : Fin 128) :
    k0_pay6 (F := Ideal) (k0_pay5 v0 v3 v5) (ix4 0 r w f)
      = rowsOut (k0_pay2 (F := Ideal) v0) (k0_pay3 (F := Ideal) v3) (k0_pay4 (F := Ideal) v5) (0 + r.val) w.val f := by
  have hr := r.isLt
  have hw := w.isLt
  unfold rowsOut k0_pay6 k0_pay5
  store_rows (tap3 (k0_pay2 (F := Ideal) v0) (0 + r.val) w.val)

/-- Rows 8–15. -/
theorem store_rows_8 (v2 : FVec Ideal S128x128x64 .bf16) (v4 : FVec Ideal S576x128 .bf16) (v6 : FVec Ideal S1x1x128 .f32)
    (r : Fin 8) (w f : Fin 128) :
    k0_pay7 (F := Ideal) v2 v4 v6 (ix4 0 r w f) = rowsOut v2 v4 v6 (8 + r.val) w.val f := by
  have hr := r.isLt
  have hw := w.isLt
  unfold rowsOut k0_pay7
  store_rows (tap3 v2 (8 + r.val) w.val)

/-- Rows 16–23. -/
theorem store_rows_16 (v2 : FVec Ideal S128x128x64 .bf16) (v4 : FVec Ideal S576x128 .bf16) (v6 : FVec Ideal S1x1x128 .f32)
    (r : Fin 8) (w f : Fin 128) :
    k0_pay13 (F := Ideal) v2 v4 v6 (k0_pay8 v2) (k0_pay9 v2) (k0_pay10 v2) (k0_pay11 v2) (k0_pay12 v2) (ix4 0 r w f)
      = rowsOut v2 v4 v6 (16 + r.val) w.val f := by
  have hr := r.isLt
  have hw := w.isLt
  unfold rowsOut k0_pay13 k0_pay8 k0_pay9 k0_pay10 k0_pay11 k0_pay12
  store_rows (tap3 v2 (16 + r.val) w.val)

/-- Rows 24–31. -/
theorem store_rows_24 (v2 : FVec Ideal S128x128x64 .bf16) (v4 : FVec Ideal S576x128 .bf16) (v6 : FVec Ideal S1x1x128 .f32)
    (r : Fin 8) (w f : Fin 128) :
    k0_pay15 (F := Ideal) v6 (k0_pay14 v2 v4) (ix4 0 r w f) = rowsOut v2 v4 v6 (24 + r.val) w.val f := by
  have hr := r.isLt
  have hw := w.isLt
  unfold rowsOut k0_pay15 k0_pay14
  store_rows (tap3 v2 (24 + r.val) w.val)

end Cert.KernelIdeal.Hand

end
-- ==== Proof.KernelStoresB.lean ====
/-
  The kernel's stores of output rows 32–63 of a block, read at an index: each is `rowsOut` at its rows.
-/
import proofs.«123447_j77137612636252_2_alg».proof.Proof.KernelRows

noncomputable section

namespace Cert.KernelIdeal.Hand

open Idealize.ShloMosaic Idealize.ShloMosaic.ValueIdx Cert.KernelIdeal Cert.KernelIdeal.Gen Cert.CircConv

/-- Rows 32–39. -/
theorem store_rows_32 (v2 : FVec Ideal S128x128x64 .bf16) (v4 : FVec Ideal S576x128 .bf16) (v6 : FVec Ideal S1x1x128 .f32)
    (r : Fin 8) (w f : Fin 128) :
    k0_pay16 (F := Ideal) v2 v4 v6 (ix4 0 r w f) = rowsOut v2 v4 v6 (32 + r.val) w.val f := by
  have hr := r.isLt
  have hw := w.isLt
  unfold rowsOut k0_pay16
  store_rows (tap3 v2 (32 + r.val) w.val)

/-- Rows 40–47. -/
theorem store_rows_40 (v2 : FVec Ideal S128x128x64 .bf16) (v4 : FVec Ideal S576x128 .bf16) (v6 : FVec Ideal S1x1x128 .f32)
    (r : Fin 8) (w f : Fin 128) :
    k0_pay19 (F := Ideal) v2 v4 v6 (k0_pay17 v2) (k0_pay18 v2) (ix4 0 r w f) = rowsOut v2 v4 v6 (40 + r.val) w.val f := by
  have hr := r.isLt
  have hw := w.isLt
  unfold rowsOut k0_pay19 k0_pay17 k0_pay18
  store_rows (tap3 v2 (40 + r.val) w.val)

/-- Rows 48–55. -/
theorem store_rows_48 (v2 : FVec Ideal S128x128x64 .bf16) (v4 : FVec Ideal S576x128 .bf16) (v6 : FVec Ideal S1x1x128 .f32)
    (r : Fin 8) (w f : Fin 128) :
    k0_pay31 (F := Ideal) v4 v6 (k0_pay20 v2) (k0_pay21 v2) (k0_pay22 v2) (k0_pay23 v2) (k0_pay24 v2) (k0_pay25 v2) (k0_pay26 v2)
        (k0_pay27 v2) (k0_pay29 v2) (k0_pay30 v2) (ix4 0 r w f)
      = rowsOut v2 v4 v6 (48 + r.val) w.val f := by
  have hr := r.isLt
  have hw := w.isLt
  unfold rowsOut k0_pay31 k0_pay20 k0_pay21 k0_pay22 k0_pay23 k0_pay24 k0_pay25 k0_pay26 k0_pay27 k0_pay29 k0_pay30 k0_pay28
  store_rows (tap3 v2 (48 + r.val) w.val)

/-- Rows 56–63. -/
theorem store_rows_56 (v2 : FVec Ideal S128x128x64 .bf16) (v4 : FVec Ideal S576x128 .bf16) (v6 : FVec Ideal S1x1x128 .f32)
    (r : Fin 8) (w f : Fin 128) :
    k0_pay32 (F := Ideal) v2 v4 v6 (ix4 0 r w f) = rowsOut v2 v4 v6 (56 + r.val) w.val f := by
  have hr := r.isLt
  have hw := w.isLt
  unfold rowsOut k0_pay32
  store_rows (tap3 v2 (56 + r.val) w.val)

end Cert.KernelIdeal.Hand

end
-- ==== Proof.KernelStoresC.lean ====
/-
  The kernel's stores of output rows 64–95 of a block, read at an index: each is `rowsOut` at its rows.
-/
import proofs.«123447_j77137612636252_2_alg».proof.Proof.KernelRows

noncomputable section

namespace Cert.KernelIdeal.Hand

open Idealize.ShloMosaic Idealize.ShloMosaic.ValueIdx Cert.KernelIdeal Cert.KernelIdeal.Gen Cert.CircConv

/-- Rows 64–71. -/
theorem store_rows_64 (v2 : FVec Ideal S128x128x64 .bf16) (v4 : FVec Ideal S576x128 .bf16) (v6 : FVec Ideal S1x1x128 .f32)
    (r : Fin 8) (w f : Fin 128) :
    k0_pay35 (F := Ideal) v2 v4 v6 (k0_pay33 v2) (k0_pay34 v2) (ix4 0 r w f) = rowsOut v2 v4 v6 (64 + r.val) w.val f := by
  have hr := r.isLt
  have hw := w.isLt
  unfold rowsOut k0_pay35 k0_pay34 k0_pay33
  store_rows (tap3 v2 (64 + r.val) w.val)

/-- Rows 72–79. -/
theorem store_rows_72 (v2 : FVec Ideal S128x128x64 .bf16) (v4 : FVec Ideal S576x128 .bf16) (v6 : FVec Ideal S1x1x128 .f32)
    (r : Fin 8) (w f : Fin 128) :
    k0_pay44 (F := Ideal) v2 v4 v6 (k0_pay36 v2) (k0_pay37 v2) (k0_pay38 v2) (k0_pay39 v2) (k0_pay40 v2) (k0_pay41 v2) (k0_pay42 v2)
        (k0_pay43 v2) (ix4 0 r w f)
      = rowsOut v2 v4 v6 (72 + r.val) w.val f := by
  have hr := r.isLt
  have hw := w.isLt
  unfold rowsOut k0_pay44 k0_pay36 k0_pay37 k0_pay38 k0_pay39 k0_pay40 k0_pay41 k0_pay42 k0_pay43
  store_rows (tap3 v2 (72 + r.val) w.val)

/-- Rows 80–87. -/
theorem store_rows_80 (v2 : FVec Ideal S128x128x64 .bf16) (v4 : FVec Ideal S576x128 .bf16) (v6 : FVec Ideal S1x1x128 .f32)
    (r : Fin 8) (w f : Fin 128) :
    k0_pay46 (F := Ideal) (k0_pay45 v2 v4 v6) (ix4 0 r w f) = rowsOut v2 v4 v6 (80 + r.val) w.val f := by
  have hr := r.isLt
  have hw := w.isLt
  unfold rowsOut k0_pay46 k0_pay45
  store_rows (tap3 v2 (80 + r.val) w.val)

/-- Rows 88–95. -/
theorem store_rows_88 (v2 : FVec Ideal S128x128x64 .bf16) (v4 : FVec Ideal S576x128 .bf16) (v6 : FVec Ideal S1x1x128 .f32)
    (r : Fin 8) (w f : Fin 128) :
    k0_pay47 (F := Ideal) v2 v4 v6 (ix4 0 r w f) = rowsOut v2 v4 v6 (88 + r.val) w.val f := by
  have hr := r.isLt
  have hw := w.isLt
  unfold rowsOut k0_pay47
  store_rows (tap3 v2 (88 + r.val) w.val)

end Cert.KernelIdeal.Hand

end
-- ==== Proof.KernelStoresD.lean ====
/-
  The kernel's stores of output rows 96–127 of a block, read at an index: each is `rowsOut` at its rows.
-/
import proofs.«123447_j77137612636252_2_alg».proof.Proof.KernelRows

noncomputable section

namespace Cert.KernelIdeal.Hand

open Idealize.ShloMosaic Idealize.ShloMosaic.ValueIdx Cert.KernelIdeal Cert.KernelIdeal.Gen Cert.CircConv

/-- Rows 96–103. -/
theorem store_rows_96 (v2 : FVec Ideal S128x128x64 .bf16) (v4 : FVec Ideal S576x128 .bf16) (v6 : FVec Ideal S1x1x128 .f32)
    (r : Fin 8) (w f : Fin 128) :
    k0_pay53 (F := Ideal) v2 v4 v6 (k0_pay48 v2) (k0_pay49 v2) (k0_pay50 v2) (k0_pay51 v2) (k0_pay52 v2) (ix4 0 r w f)
      = rowsOut v2 v4 v6 (96 + r.val) w.val f := by
  have hr := r.isLt
  have hw := w.isLt
  unfold rowsOut k0_pay53 k0_pay48 k0_pay49 k0_pay50 k0_pay51 k0_pay52
  store_rows (tap3 v2 (96 + r.val) w.val)

/-- Rows 104–111. -/
theorem store_rows_104 (v2 : FVec Ideal S128x128x64 .bf16) (v4 : FVec Ideal S576x128 .bf16) (v6 : FVec Ideal S1x1x128 .f32)
    (r : Fin 8) (w f : Fin 128) :
    k0_pay55 (F := Ideal) v6 (k0_pay54 v2 v4) (ix4 0 r w f) = rowsOut v2 v4 v6 (104 + r.val) w.val f := by
  have hr := r.isLt
  have hw := w.isLt
  unfold rowsOut k0_pay55 k0_pay54
  store_rows (tap3 v2 (104 + r.val) w.val)

/-- Rows 112–119. -/
theorem store_rows_112 (v2 : FVec Ideal S128x128x64 .bf16) (v4 : FVec Ideal S576x128 .bf16) (v6 : FVec Ideal S1x1x128 .f32)
    (r : Fin 8) (w f : Fin 128) :
    k0_pay56 (F := Ideal) v2 v4 v6 (ix4 0 r w f) = rowsOut v2 v4 v6 (112 + r.val) w.val f := by
  have hr := r.isLt
  have hw := w.isLt
  unfold rowsOut k0_pay56
  store_rows (tap3 v2 (112 + r.val) w.val)

/-- Rows 120–127: the band one row further down wraps to the image's first row. -/
theorem store_rows_120 (v2 : FVec Ideal S128x128x64 .bf16) (v4 : FVec Ideal S576x128 .bf16) (v6 : FVec Ideal S1x1x128 .f32)
    (r : Fin 8) (w f : Fin 128) :
    k0_pay1 (F := Ideal) v2 v4 v6 (k0_pay57 v2) (k0_pay58 v2) (k0_pay59 v2) (ix4 0 r w f) = rowsOut v2 v4 v6 (120 + r.val) w.val f := by
  have hr := r.isLt
  have hw := w.isLt
  unfold rowsOut k0_pay1 k0_pay57 k0_pay59 k0_pay58
  store_rows (tap3 v2 (120 + r.val) w.val)

end Cert.KernelIdeal.Hand

end
-- ==== Proof.KernelBlock.lean ====
/-
  What the kernel leaves in its output block, as one function of its three input blocks.

  The body's sixteen stores write rows `8 n .. 8 n + 7` of the block (`n = 0..15`); each stores `rowsOut` at its rows
  (the `store_rows_*` lemmas), so together they leave `rowsOut` at every `(h, w, f)` (`out_rows`).  Read through the
  loads — the image block loses its leading unit axis, the bias gains two, and rounding to `bf16` is the identity at
  `Ideal` — that is the convolution of the blocks (`out_conv`).
-/
import proofs.«123447_j77137612636252_2_alg».proof.Proof.Gen.KernelIdeal.Frame
import proofs.«123447_j77137612636252_2_alg».proof.Proof.KernelStoresA
import proofs.«123447_j77137612636252_2_alg».proof.Proof.KernelStoresB
import proofs.«123447_j77137612636252_2_alg».proof.Proof.KernelStoresC
import proofs.«123447_j77137612636252_2_alg».proof.Proof.KernelStoresD

noncomputable section

open scoped BigOperators

namespace Cert.KernelIdeal.Hand

open Idealize.ShloMosaic Idealize.ShloMosaic.ValueIdx Cert.KernelIdeal Cert.KernelIdeal.Gen Cert.CircConv

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- `rowsOut` over the whole block. -/
def blockRows (v2 : (T3 128 128 64).Idx → EReal) (v4 : (T2 576 128).Idx → EReal) (v6 : (T3 1 1 128).Idx → EReal) :
    S1x128x128x128.Idx → EReal :=
  fun y => rowsOut v2 v4 v6 (y 1).val (y 2).val (y 3)

theorem rowsOut_congr (v2 : (T3 128 128 64).Idx → EReal) (v4 : (T2 576 128).Idx → EReal) (v6 : (T3 1 1 128).Idx → EReal)
    {h h' w w' : Nat} {f f' : Fin 128} (hh : h = h') (hw : w = w') (hf : f.val = f'.val) :
    rowsOut v2 v4 v6 h w f = rowsOut v2 v4 v6 h' w' f' := by
  rw [hh, hw, Fin.ext hf]

/-- A store of eight rows from row `o` whose value is `rowsOut` at those rows is `blockRows` under its rectangle. -/
theorem store_ok (o : Nat) (inb : ∀ a, (![0, o, 0, 0] : Fin 4 → Nat) a + S1x8x128x128.size a ≤ S1x128x128x128.size a)
    (pay : S1x8x128x128.Idx → EReal) (v2 : (T3 128 128 64).Idx → EReal) (v4 : (T2 576 128).Idx → EReal) (v6 : (T3 1 1 128).Idx → EReal)
    (hpay : ∀ (r : Fin 8) (w f : Fin 128), pay (ix4 0 r w f) = rowsOut v2 v4 v6 (o + r.val) w.val f) (x : S1x8x128x128.Idx) :
    pay x = blockRows v2 v4 v6 ((Rect.unit (s := S1x128x128x128) ![0, o, 0, 0] S1x8x128x128.size inb).emb x) := by
  obtain ⟨u, r, w, f, rfl⟩ : ∃ (u : Fin 1) (r : Fin 8) (w f : Fin 128), x = ix4 u r w f := ⟨x 0, x 1, x 2, x 3, eq_ix4 x⟩
  obtain rfl : u = 0 := Fin.ext (by have := u.isLt; omega)
  refine (hpay r w f).trans ?_
  unfold blockRows
  refine rowsOut_congr v2 v4 v6 ?_ ?_ ?_
  · show o + r.val = o + 1 * r.val; omega
  · show w.val = 0 + 1 * w.val; omega
  · show f.val = 0 + 1 * f.val; omega

/-- THE BLOCK AFTER THE BODY: `rowsOut` of the three loaded values at every index. -/
theorem out_rows (x0 : Vec Ideal S1x128x128x64 .f32) (x1 : Vec Ideal S576x128 .f32) (x2 : Vec Ideal S128 .f32) :
    out0_3 (F := Ideal) x0 x1 x2 = blockRows (k0_pay2 (F := Ideal) x0) (k0_pay3 (F := Ideal) x1) (k0_pay4 (F := Ideal) x2) := by
  funext y
  unfold out0_3
  simp only [View.ld_unit_zero (S := S1x128x128x64) hz4, View.ld_unit_zero (S := S576x128) hz2, View.ld_unit_zero (S := S128) hz1]
  refine View.canon_apply_of_pieces (Val := Elt Ideal) (e := .f32) (blockRows (k0_pay2 (F := Ideal) x0) (k0_pay3 (F := Ideal) x1) (k0_pay4 (F := Ideal) x2)) _ ?_ y
    (cover0_3 _ _ _ _ _ _ _ _ _ _ _ _ _ _ _ _ y)
  intro pc hpc x
  rcases List.mem_cons.mp hpc with rfl | hpc
  · exact store_ok 120 inb_S1x128x128x128_S1x8x128x128_0_120_0_0 _ _ _ _ (store_rows_120 _ _ _) x
  rcases List.mem_cons.mp hpc with rfl | hpc
  · exact store_ok 112 inb_S1x128x128x128_S1x8x128x128_0_112_0_0 _ _ _ _ (store_rows_112 _ _ _) x
  rcases List.mem_cons.mp hpc with rfl | hpc
  · exact store_ok 104 inb_S1x128x128x128_S1x8x128x128_0_104_0_0 _ _ _ _ (store_rows_104 _ _ _) x
  rcases List.mem_cons.mp hpc with rfl | hpc
  · exact store_ok 96 inb_S1x128x128x128_S1x8x128x128_0_96_0_0 _ _ _ _ (store_rows_96 _ _ _) x
  rcases List.mem_cons.mp hpc with rfl | hpc
  · exact store_ok 88 inb_S1x128x128x128_S1x8x128x128_0_88_0_0 _ _ _ _ (store_rows_88 _ _ _) x
  rcases List.mem_cons.mp hpc with rfl | hpc
  · exact store_ok 80 inb_S1x128x128x128_S1x8x128x128_0_80_0_0 _ _ _ _ (store_rows_80 _ _ _) x
  rcases List.mem_cons.mp hpc with rfl | hpc
  · exact store_ok 72 inb_S1x128x128x128_S1x8x128x128_0_72_0_0 _ _ _ _ (store_rows_72 _ _ _) x
  rcases List.mem_cons.mp hpc with rfl | hpc
  · exact store_ok 64 inb_S1x128x128x128_S1x8x128x128_0_64_0_0 _ _ _ _ (store_rows_64 _ _ _) x
  rcases List.mem_cons.mp hpc with rfl | hpc
  · exact store_ok 56 inb_S1x128x128x128_S1x8x128x128_0_56_0_0 _ _ _ _ (store_rows_56 _ _ _) x
  rcases List.mem_cons.mp hpc with rfl | hpc
  · exact store_ok 48 inb_S1x128x128x128_S1x8x128x128_0_48_0_0 _ _ _ _ (store_rows_48 _ _ _) x
  rcases List.mem_cons.mp hpc with rfl | hpc
  · exact store_ok 40 inb_S1x128x128x128_S1x8x128x128_0_40_0_0 _ _ _ _ (store_rows_40 _ _ _) x
  rcases List.mem_cons.mp hpc with rfl | hpc
  · exact store_ok 32 inb_S1x128x128x128_S1x8x128x128_0_32_0_0 _ _ _ _ (store_rows_32 _ _ _) x
  rcases List.mem_cons.mp hpc with rfl | hpc
  · exact store_ok 24 inb_S1x128x128x128_S1x8x128x128_0_24_0_0 _ _ _ _ (store_rows_24 _ _ _) x
  rcases List.mem_cons.mp hpc with rfl | hpc
  · exact store_ok 16 inb_S1x128x128x128_S1x8x128x128_0_16_0_0 _ _ _ _ (store_rows_16 _ _ _) x
  rcases List.mem_cons.mp hpc with rfl | hpc
  · exact store_ok 8 inb_S1x128x128x128_S1x8x128x128_0_8_0_0 _ _ _ _ (store_rows_8 _ _ _) x
  rcases List.mem_cons.mp hpc with rfl | hpc
  · exact store_ok 0 inb_S1x128x128x128_S1x8x128x128_0_0_0_0 _ _ _ _ (store_rows_0 x0 x1 x2) x
  exact absurd hpc List.not_mem_nil

/-- The image block without its leading unit axis (and rounded to `bf16`, the identity at `Ideal`). -/
theorem image_apply (x0 : Vec Ideal S1x128x128x64 .f32) (h w : Fin 128) (c : Fin 64) :
    k0_pay2 (F := Ideal) x0 (ix3 h w c) = x0 (ix4 0 h w c) := by
  have hh := h.isLt
  have hw := w.isLt
  unfold k0_pay2
  refine shapeCast_apply x0 _ (ix3 h w c) (ix4 0 h w c) ?_
  rw [Shape.rowMajor_val_four, Shape.rowMajor_val_three]
  show ((0 * 128 + h.val) * 128 + w.val) * 64 + c.val = (h.val * 128 + w.val) * 64 + c.val
  omega

/-- The bias block laid as `1 × 1 × 128`. -/
theorem bias_row_apply (x2 : Vec Ideal S128 .f32) (f : Fin 128) : k0_pay4 (F := Ideal) x2 (ix3 0 0 f) = x2 (ix1 f) := by
  unfold k0_pay4
  refine shapeCast_apply x2 _ (ix3 0 0 f) (ix1 f) ?_
  rw [Shape.rowMajor_val_one, Shape.rowMajor_val_three]
  show f.val = (0 * 1 + 0) * 128 + f.val
  omega

/-- THE BLOCK AFTER THE BODY is the convolution of the three input blocks. -/
theorem out_conv (x0 : Vec Ideal S1x128x128x64 .f32) (x1 : Vec Ideal S576x128 .f32) (x2 : Vec Ideal S128 .f32)
    (u : Fin 1) (h w f : Fin 128) :
    out0_3 (F := Ideal) x0 x1 x2 (ix4 u h w f) = convAt x0 x1 x2 (0 : Fin 1) h.val w.val f := by
  rw [out_rows]
  show rowsOut (k0_pay2 (F := Ideal) x0) (k0_pay3 (F := Ideal) x1) (k0_pay4 (F := Ideal) x2) h.val w.val f = _
  unfold rowsOut convAt tap3 tap
  rw [bias_row_apply]
  refine congrArg (· + x2 (ix1 f)) (Finset.sum_congr rfl fun k _ => ?_)
  rw [image_apply]
  rfl

end Cert.KernelIdeal.Hand

end
-- ==== Proof.KernelValue.lean ====
/-
  The kernel's result array is the convolution `conv` of its argument arrays.

  Grid point `t` works on image `b` and output-channel tile `j` (its block index is `(b, 0, 0, j)`): it reads image `b`,
  columns `128 j .. 128 j + 127` of the weights and of the bias, and writes channels `128 j .. 128 j + 127` of image `b`'s
  result.  What it writes back is the block's convolution (`out_conv`), which is that block of `conv` of the whole
  arrays (`flushed_eq`); the 32 blocks tile the result (`covered`), so the array ends at `conv` (`final`, `run`).
  The steps from the blocks to the array (the relations between the index maps decided over the grid, a block's
  coordinate as index × size + offset, the cover by arithmetic) are those of a pipelined kernel's closed form.
-/
import proofs.«123447_j77137612636252_2_alg».proof.Proof.Gen.KernelIdeal.Value
import proofs.«123447_j77137612636252_2_alg».proof.Proof.KernelBlock

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.CircConv
open Idealize.ShloMosaic.Pipeline (Dat)

variable (m : (ℓ : Loc nD τ sig) → Buf (Elt Ideal) ℓ) (ρ : Dev nD → PrngReg)

/-- A block of the convolution: when the three input blocks are the parts of the arrays `A0`, `A1`, `A2` that image `q0`
    and channel tile `q3` name, the body's result at `j` is `conv` of the arrays at the index `i` under it. -/
theorem block_eq (A0 : S16x128x128x64.Idx → EReal) (A1 : S576x256.Idx → EReal) (A2 : S256.Idx → EReal)
    (x0 : Vec Ideal S1x128x128x64 .f32) (x1 : Vec Ideal S576x128 .f32) (x2 : Vec Ideal S128 .f32) (q0 : Fin 16) (q3 : Nat) (hq3 : q3 ≤ 1)
    (h0 : ∀ (hh ww : Fin 128) (cc : Fin 64), x0 (ix4 0 hh ww cc) = A0 (ix4 q0 hh ww cc))
    (h1 : ∀ (k : Fin 576) (ff : Fin 128), x1 (ix2 k ff) = A1 (ix2 k ⟨q3 * 128 + ff.val, by have := ff.isLt; omega⟩))
    (h2 : ∀ ff : Fin 128, x2 (ix1 ff) = A2 (ix1 ⟨q3 * 128 + ff.val, by have := ff.isLt; omega⟩))
    (j : S1x128x128x128.Idx) (i : S16x128x128x256.Idx) (hi0 : (i 0).val = q0.val) (hi1 : (i 1).val = (j 1).val)
    (hi2 : (i 2).val = (j 2).val) (hi3 : (i 3).val = q3 * 128 + (j 3).val) :
    out0_3 (F := Ideal) x0 x1 x2 j = conv A0 A1 A2 i := by
  obtain ⟨u, h, w, f, rfl⟩ : ∃ (u : Fin 1) (h w f : Fin 128), j = ix4 u h w f := ⟨j 0, j 1, j 2, j 3, eq_ix4 j⟩
  have hf := f.isLt
  have hi1' : (i 1).val = h.val := hi1
  have hi2' : (i 2).val = w.val := hi2
  have hi3' : (i 3).val = q3 * 128 + f.val := hi3
  rw [out_conv]
  have e : i = ix4 q0 h w ⟨q3 * 128 + f.val, by omega⟩ := funext fun a => Fin.ext (by
    match a with
    | ⟨0, _⟩ => exact hi0
    | ⟨1, _⟩ => exact hi1'
    | ⟨2, _⟩ => exact hi2'
    | ⟨3, _⟩ => exact hi3')
  rw [e]
  show convAt x0 x1 x2 (0 : Fin 1) h.val w.val f = convAt A0 A1 A2 q0 h.val w.val ⟨q3 * 128 + f.val, by omega⟩
  unfold convAt tap
  rw [h2]
  refine congrArg (· + A2 (ix1 ⟨q3 * 128 + f.val, by omega⟩)) (Finset.sum_congr rfl fun k _ => ?_)
  rw [h0, h1]

/-- The printed index maps, decided over the 32 grid points: the image window moves with the output's image index, the
    weights' and the bias's windows with its channel tile; the other block indices are zero. -/
theorem idx_facts : ∀ t : Fin cfg0.N, win0_0.index t (0 : Fin 4) = win0_3.index t (0 : Fin 4)
    ∧ win0_0.index t (1 : Fin 4) = 0 ∧ win0_0.index t (2 : Fin 4) = 0 ∧ win0_0.index t (3 : Fin 4) = 0
    ∧ win0_1.index t (0 : Fin 2) = 0 ∧ win0_1.index t (1 : Fin 2) = win0_3.index t (3 : Fin 4)
    ∧ win0_2.index t (0 : Fin 1) = win0_3.index t (3 : Fin 4)
    ∧ win0_3.index t (1 : Fin 4) = 0 ∧ win0_3.index t (2 : Fin 4) = 0
    ∧ win0_3.index t (0 : Fin 4) ≤ 15 ∧ win0_3.index t (3 : Fin 4) ≤ 1 :=
  (by decide +kernel : ∀ t : Fin grid0.N, _)

/-- Every (image, channel tile) pair is some point's. -/
theorem idx_onto : ∀ (q0 : Fin 16) (q3 : Fin 2), ∃ t : Fin cfg0.N, win0_3.index t = ![q0.val, 0, 0, q3.val] :=
  (by decide +kernel : ∀ (q0 : Fin 16) (q3 : Fin 2), ∃ t : Fin grid0.N, win0_3.index t = ![q0.val, 0, 0, q3.val])

/-- WHAT POINT `t` WRITES BACK is block `t` of the convolution of the argument arrays. -/
theorem flushed_eq (c : Dev nD) (t : Fin cfg0.N) :
    (dats m 0 c).flushed 3 t
      = ((cfg0.win 3).blk t).view.read (Elt Ideal) (conv (V m c main_arg0) (V m c main_arg1) (V m c main_arg2)) := by
  rw [Cert.KernelIdeal.Value.flushed3]
  obtain ⟨e00, e01, e02, e03, e10, e11, e20, e31, e32, b0, b3⟩ := idx_facts t
  funext j
  show out0_3 (iblk m c 0 t) (iblk m c 1 t) (iblk m c 2 t) j
    = conv (V m c main_arg0) (V m c main_arg1) (V m c main_arg2) (((cfg0.win 3).blk t).view.emb j)
  have hj1 : (j 1).val < 128 := (j 1).isLt
  have hj2 : (j 2).val < 128 := (j 2).isLt
  have hj3 : (j 3).val < 128 := (j 3).isLt
  have hj0 : (j 0).val < 1 := (j 0).isLt
  refine block_eq (V m c main_arg0) (V m c main_arg1) (V m c main_arg2) (iblk m c 0 t) (iblk m c 1 t) (iblk m c 2 t)
    ⟨win0_3.index t (0 : Fin 4), by omega⟩ (win0_3.index t (3 : Fin 4)) b3 ?_ ?_ ?_ j _ ?_ ?_ ?_ ?_
  · intro hh ww cc
    show V m c main_arg0 (((cfg0.win 0).blk t).view.emb (ix4 0 hh ww cc)) = V m c main_arg0 (ix4 _ hh ww cc)
    refine congrArg (V m c main_arg0) (funext fun a => Fin.ext ?_)
    match a with
    | ⟨0, _⟩ => show win0_0.index t (0 : Fin 4) * 1 + 1 * 0 = win0_3.index t (0 : Fin 4); omega
    | ⟨1, _⟩ => show win0_0.index t (1 : Fin 4) * 128 + 1 * hh.val = hh.val; omega
    | ⟨2, _⟩ => show win0_0.index t (2 : Fin 4) * 128 + 1 * ww.val = ww.val; omega
    | ⟨3, _⟩ => show win0_0.index t (3 : Fin 4) * 64 + 1 * cc.val = cc.val; omega
  · intro k ff
    show V m c main_arg1 (((cfg0.win 1).blk t).view.emb (ix2 k ff)) = V m c main_arg1 (ix2 k _)
    refine congrArg (V m c main_arg1) (funext fun a => Fin.ext ?_)
    match a with
    | ⟨0, _⟩ => show win0_1.index t (0 : Fin 2) * 576 + 1 * k.val = k.val; omega
    | ⟨1, _⟩ => show win0_1.index t (1 : Fin 2) * 128 + 1 * ff.val = win0_3.index t (3 : Fin 4) * 128 + ff.val; omega
  · intro ff
    show V m c main_arg2 (((cfg0.win 2).blk t).view.emb (ix1 ff)) = V m c main_arg2 (ix1 _)
    refine congrArg (V m c main_arg2) (funext fun a => Fin.ext ?_)
    match a with
    | ⟨0, _⟩ => show win0_2.index t (0 : Fin 1) * 128 + 1 * ff.val = win0_3.index t (3 : Fin 4) * 128 + ff.val; omega
  · show win0_3.index t (0 : Fin 4) * 1 + 1 * (j 0).val = win0_3.index t (0 : Fin 4); omega
  · show win0_3.index t (1 : Fin 4) * 128 + 1 * (j 1).val = (j 1).val; omega
  · show win0_3.index t (2 : Fin 4) * 128 + 1 * (j 2).val = (j 2).val; omega
  · show win0_3.index t (3 : Fin 4) * 128 + 1 * (j 3).val = win0_3.index t (3 : Fin 4) * 128 + (j 3).val; omega

/-- An index of the result array is in point `t`'s block iff each coordinate is in the block's range on its axis. -/
theorem mem_blk (t : Fin cfg0.N) (i : S16x128x128x256.Idx) :
    i ∈ ((cfg0.win 3).blk t).view.set ↔ ∀ a : Fin 4, win0_3.index t a * S1x128x128x128.size a ≤ (i a).val
      ∧ (i a).val < win0_3.index t a * S1x128x128x128.size a + S1x128x128x128.size a := by
  show i ∈ ((View.whole main_v0).slice (win0_3.rect t)).set ↔ _
  rw [View.set_slice_whole, Rect.mem_set_unit]
  exact Iff.rfl

/-- The 32 blocks tile the result array: index `(b, h, w, f)` is in the block of image `b`, channel tile `f / 128`. -/
theorem covered (i : S16x128x128x256.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hi2 : (i 2).val < 128 := (i 2).isLt
  have hi3 : (i 3).val < 256 := (i 3).isLt
  obtain ⟨t, ht⟩ := idx_onto ⟨(i 0).val, hi0⟩ ⟨(i 3).val / 128, by omega⟩
  have q0 : win0_3.index t (0 : Fin 4) = (i 0).val := congrFun ht 0
  have q1 : win0_3.index t (1 : Fin 4) = 0 := congrFun ht 1
  have q2 : win0_3.index t (2 : Fin 4) = 0 := congrFun ht 2
  have q3 : win0_3.index t (3 : Fin 4) = (i 3).val / 128 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- THE RESULT ARRAY after the run is the convolution of the argument arrays. -/
theorem final (c : Dev nD) :
    (dats m 0 c).arrAt 3 cfg0.N
      = conv (m ((c : Thread nD τ).loc main_arg0)) (m ((c : Thread nD τ).loc main_arg1)) (m ((c : Thread nD τ).loc main_arg2)) :=
  (dats m 0 c).arrAt_eq_of_cover 3 (conv (V m c main_arg0) (V m c main_arg1) (V m c main_arg2)) (fun t _ => flushed_eq m c t) covered

/-- The frame run re-posted: the result array at the convolution of the arguments, the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Hand

end
-- ==== Proof.lean ====
/-
  A 3×3 convolution with wrap-around at the image's edges: a kernel against `jnp`.

  Both programs take an image batch `x : [16, 128, 128, 64]`, weights `[576, 256]` and a bias `[256]`, and return

      out (b, h, w, f) = Σ_{k < 576} x (b, (h − dh) mod 128, (w − dw) mod 128, k % 64) · kern (k, f) + bias f,

  where tap `s = k / 64` shifts by `dh = s % 3 − 1` rows and `dw = s / 3 − 1` columns (`Cert.CircConv.conv`, Proof/Spec.lean).
  The reference rolls the whole batch nine times, stacks the copies and contracts (Proof/RefValue.lean); the kernel
  takes one image and one half of the output channels per grid point, builds the nine shifted copies for eight output
  rows at a time out of slices and joins, and multiplies them into the weights' block (Proof/KernelStores*.lean,
  Proof/KernelBlock.lean, Proof/KernelValue.lean).  At `Ideal` the kernel's rounding of its operands to `bf16` is the
  identity, and the two sums run over the same 576 products in the same order, so the results agree entry by entry
  without any appeal to the inputs being finite.
-/
import proofs.«123447_j77137612636252_2_alg».proof.Defs
import proofs.«123447_j77137612636252_2_alg».proof.Proof.Gen.Kernel
import proofs.«123447_j77137612636252_2_alg».proof.Proof.Gen.Kernel.Skeleton
import proofs.«123447_j77137612636252_2_alg».proof.Proof.Gen.Kernel.Launch
import proofs.«123447_j77137612636252_2_alg».proof.Proof.Gen.Kernel.Points
import proofs.«123447_j77137612636252_2_alg».proof.Proof.Gen.Kernel.Frame
import proofs.«123447_j77137612636252_2_alg».proof.Proof.Gen.KernelIdeal
import proofs.«123447_j77137612636252_2_alg».proof.Proof.Gen.KernelIdeal.Skeleton
import proofs.«123447_j77137612636252_2_alg».proof.Proof.Gen.KernelIdeal.Launch
import proofs.«123447_j77137612636252_2_alg».proof.Proof.Gen.KernelIdeal.Points
import proofs.«123447_j77137612636252_2_alg».proof.Proof.Gen.KernelIdeal.Frame
import proofs.«123447_j77137612636252_2_alg».proof.Proof.Gen.KernelIdeal.Value
import proofs.«123447_j77137612636252_2_alg».proof.Proof.Gen.ReferenceIdeal
import proofs.«123447_j77137612636252_2_alg».proof.Proof.Gen.Pre_finite_inputs
import proofs.«123447_j77137612636252_2_alg».proof.Proof.RefRunP
import proofs.«123447_j77137612636252_2_alg».proof.Proof.RefReadP
import proofs.«123447_j77137612636252_2_alg».proof.Proof.RefValue
import proofs.«123447_j77137612636252_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read at `Ideal`. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At `Ideal` the kernel's result array ends at the convolution of its arguments, and so does the reference's, of
    arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v23_eq, Cert.ReferenceIdeal.Hand.ref_eq_conv, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
